-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x40 .f32) (main_arg5 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x1, .f32⟩
  | .hbm, ⟨80, _⟩ => ⟨S1700000x40, .f32⟩
  | .hbm, ⟨81, _⟩ => ⟨S1700000x40, .f32⟩
  | .hbm, ⟨82, _⟩ => ⟨S_, .f32⟩
  | .hbm, ⟨83, _⟩ => ⟨S100000x40, .f32⟩
  | .hbm, ⟨84, _⟩ => ⟨S1700000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run, with its result array named.

  @main is eight segments in order: three stretches of host operations (the edge bookkeeping), the first kernel, a
  stretch (aggregation and the first bias row), the second kernel, a stretch (aggregation and the second bias row), the
  third kernel. The buffer contents at each boundary are a fold through these segments from the launch memory: a host
  stretch leaves what its operations compute from what it found; a kernel leaves its arrays at what its write-backs
  amount to and every other buffer alone. `W8` is the contents at the last boundary.

  Every weakly fair execution of @main terminates, and in its final memory every buffer that outlives a kernel holds
  what `W8` says: the first thread state is made from the launch memory, the segments chain from one boundary's
  contents to the next, and the last thread state is read against the final memory. From that one fact about the
  final memory the result buffer is read at `W8` and each argument buffer, which no segment writes, at its launch
  contents.
-/
import proofs.«138661_j11828339933760_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result array ends at
    the last boundary's contents `W8` and the six argument arrays end as launched. -/
theorem run : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowBias.lean ====
/-
  Rows plus a bias row, then the maximum with zero — general in the number of rows R and of columns K.

  For `a` of shape [R, K] and a bias kept as a one-row array `b` of shape [1, K], `hiddenRows a b` has at (r, k) the
  value `max (a (r, k) + b (0, k)) 0`, the zero spelt as the f32 word 0x00000000 (the same word wherever it is
  printed, never evaluated). The operation acts on each row by itself: `hiddenRows_congr` says that where a block
  `a'` holds at its row `p'` what `a` holds at row `p`, and the two bias rows agree, the two results agree at those
  rows. Nothing here needs the entries to be finite.
-/
import Idealize.ShloMosaic.PureOps.Ideal.Laws
import Idealize.ShloMosaic.Lib.ValueIdx

noncomputable section

namespace Cert.Dense

open Idealize.ShloMosaic Idealize.ShloMosaic.ValueIdx

/-- `max (a (r, k) + b (0, k)) 0` at every (r, k). -/
def hiddenRows {R K : Nat} (a : (⟨2, ![R, K]⟩ : Shape).Idx → EReal) (b : (⟨2, ![1, K]⟩ : Shape).Idx → EReal) :
    (⟨2, ![R, K]⟩ : Shape).Idx → EReal :=
  fun i => max (a i + b (ix2 (0 : Fin 1) (i 1 : Fin K))) (Ideal.ofBits .f32 0x00000000#32)

/-- Read at a row and a column. -/
theorem hiddenRows_apply {R K : Nat} (a : (⟨2, ![R, K]⟩ : Shape).Idx → EReal) (b : (⟨2, ![1, K]⟩ : Shape).Idx → EReal)
    (p : Fin R) (k : Fin K) :
    hiddenRows a b (ix2 p k) = max (a (ix2 p k) + b (ix2 (0 : Fin 1) k)) (Ideal.ofBits .f32 0x00000000#32) := rfl

/-- Each row by itself: equal rows and equal bias rows give equal results at those rows. -/
theorem hiddenRows_congr {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal) (p : Fin R) (p' : Fin R') (k : Fin K)
    (ha : a' (ix2 p' k) = a (ix2 p k)) (hb : b' (ix2 (0 : Fin 1) k) = b (ix2 (0 : Fin 1) k)) :
    hiddenRows a' b' (ix2 p' k) = hiddenRows a b (ix2 p k) := by
  rw [hiddenRows_apply, hiddenRows_apply, ha, hb]

end Cert.Dense

end
-- ==== Proof.LibRowSoftmax.lean ====
/-
  A row normalised by its exponentials, and a one-axis contraction as a sum — general in every extent.

  * `rowMax`, `expRow`, `softRow`: for a row `sc` of extended reals indexed by `Fin S`, its maximum taken from the f32
    word of −∞ (the word is carried, never evaluated, so that two programs that print the same word agree by
    reading), the exponential of each entry's distance to that maximum, and each exponential over the sum of the
    row's exponentials. This is the row-wise softmax as both a kernel's lane reductions and a host's `reduce`
    operations compute it on the extended reals.
  * `max_fold_max_self`: a fold of `max` started from `a` is already at least `a`, so a further maximum with `a`
    changes nothing (a host softmax takes the maximum with −∞ once more after reducing from −∞).
  * `contraction_sum`: a contraction over ONE axis of extent `K` — how a matrix unit's product into a zero
    accumulator, and the host's `dot_general`, read on the extended reals — is the sum over that axis's coordinate
    of the two operands' entries, once each entry at the renamed contraction index is named. Whatever the operands'
    layouts (either may be contracted along either axis): the caller supplies the two index equations.

  No finiteness is needed anywhere.
-/
import Idealize.ShloMosaic.PureOps.Ideal.Laws
import Idealize.ShloMosaic.Lib.ValueIdx

noncomputable section

namespace Cert.Attn

open Idealize.ShloMosaic Idealize.ShloMosaic.ValueIdx

/-- The maximum of a row, taken from the f32 word of −∞. -/
def rowMax {S : Nat} (sc : Fin S → EReal) : EReal :=
  (Finset.univ : Finset (Fin S)).fold max (Ideal.ofBits .f32 0xFF800000#32) sc

/-- The exponential of each entry's distance to the row's maximum. -/
def expRow {S : Nat} (sc : Fin S → EReal) : Fin S → EReal := fun s => Ideal.exp (sc s - rowMax sc)

/-- A row normalised: each exponential over the sum of the row's exponentials. -/
def softRow {S : Nat} (sc : Fin S → EReal) : Fin S → EReal :=
  fun s => Ideal.div (expRow sc s) (∑ s' : Fin S, expRow sc s')

/-- The maximum with the starting value changes nothing: a fold of `max` from `a` is already at least `a`. -/
theorem max_fold_max_self {ι : Type} (s : Finset ι) (a : EReal) (f : ι → EReal) :
    max a (s.fold max a f) = s.fold max a f :=
  max_eq_right (by rw [Finset.le_fold_max]; exact Or.inl le_rfl)

/-- A contraction over ONE axis of extent `K` is the sum over that axis's coordinate, once each operand's entry at
    the renamed contraction index is named. -/
theorem contraction_sum {K : Nat} {sl sr so : Shape} (d : DotDims sl sr so) (hr : d.contr.rank = 1)
    (hs : d.contr.size ⟨0, by omega⟩ = K) (l : sl.Idx → EReal) (r : sr.Idx → EReal) (i : so.Idx) (L R : Fin K → EReal)
    (hl : ∀ k : Fin K, l (d.lhsIdx i ((contrEquiv1 d K hr hs).symm k)) = L k)
    (hw : ∀ k : Fin K, r (d.rhsIdx i ((contrEquiv1 d K hr hs).symm k)) = R k) :
    ∑ q : d.contr.Idx, l (d.lhsIdx i q) * r (d.rhsIdx i q) = ∑ k : Fin K, L k * R k := by
  rw [← Equiv.sum_comp (contrEquiv1 d K hr hs).symm]
  exact Finset.sum_congr rfl fun k _ => by rw [hl k, hw k]

end Cert.Attn

end
-- ==== Proof.Network.lean ====
/-
  The two-layer graph convolution both programs compute, as plain functions of the six argument arrays.

  The graph has 100000 nodes and 1600000 directed edges given by their two rows of end points; every node also gets a
  self-loop, so there are 1700000 edges in all. An edge's WEIGHT is d(r)^(-1/2) · d(c)^(-1/2) for its end points r, c,
  where d(n) counts the edges whose second end point is n (zero degrees give weight 0). AGGREGATING an array h of one row
  per node replaces it by  out(c, ·) = Σ over the edges (r, c) of weight · h(r, ·):  gather the rows at the first end
  points, scale each by its edge's weight, and add them up at the second end points. An end point read from the edge
  array is a signed word: a negative one counts from the end (n + 100000), as array indexing does.

  The network is then
      h1  = x · W1                                    (100000 × 128)
      a1  = aggregate h1
      h2  = max(a1 + b1, 0) · W2                      (100000 × 40)
      a2  = aggregate h2
      out = log-softmax along each row of (a2 + b2):   z − max z − log Σ exp(z − max z).

  The edge bookkeeping is spelt with the host operations both programs print for it (the same operations, the same
  dimension records and the same constant words), so that each program's result unfolds to these functions by reading;
  the three dense stages are stated on the extended reals, entry by entry.
-/
import proofs.«138661_j11828339933760_1_alg».proof.Proof.Gen.KernelIdeal
import proofs.«138661_j11828339933760_1_alg».proof.Proof.LibRowsTimes
import proofs.«138661_j11828339933760_1_alg».proof.Proof.LibRowBias
import proofs.«138661_j11828339933760_1_alg».proof.Proof.LibRowSoftmax

noncomputable section

namespace Cert.Gcn

open Idealize.ShloMosaic Idealize.ShloMosaic.ValueIdx Cert.KernelIdeal Cert.KernelIdeal.Gen Cert.Dense Cert.Attn

variable {F : FTy → Type} [FloatOps F]

/-- The node numbers 0 … 99999: the end points of the self-loops. -/
def selfLoops : (⟨S100000, .i32⟩ : BufTy).Contents (Elt F) := iotaInDim S100000 32 0

/-- The first end point of every edge: row 0 of the edge array, then the self-loops. -/
def firstEnds (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The second end point of every edge: row 1 of the edge array, then the self-loops. -/
def secondEnds (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- End points as a column of row numbers to GATHER at: a negative one counts from the end. -/
def gatherAt (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- End points as a column of row numbers to ADD at. -/
def addAt (v : (⟨S1700000, .i32⟩ : BufTy).Contents (Elt F)) : (⟨S1700000x1, .i32⟩ : BufTy).Contents (Elt F) :=
  broadcastInDim S1700000x1 ![0] bcast_S1700000_S1700000x1_0 v

/-- A node's degree: one for every edge that ends at it. -/
def degree (col : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- degree^(-1/2) where the degree is positive, 0 elsewhere. -/
def invSqrtDegree (col : (⟨S1700000, .i32⟩ : BufTy).Contents (Elt F)) : (⟨S100000, .f32⟩ : BufTy).Contents (Elt F) :=
  select (cmpf (F := F) .ogt (degree (F := F) col) (broadcastInDim S100000 ![] bcast_S_S100000 (constant S_ .f32 0x00000000#32))) (Host.rsqrt (degree (F := F) col)) (broadcastInDim S100000 ![] bcast_S_S100000 (id (constant S_ .f32 0x00000000#32)))

/-- An edge's weight: the product of its two end points' degree^(-1/2). -/
def edgeWeight (row col : (⟨S1700000, .i32⟩ : BufTy).Contents (Elt F)) : (⟨S1700000, .f32⟩ : BufTy).Contents (Elt F) :=
  mulf (Host.gather gather_S100000_S1700000x1_S1700000_n_0_n_n_0_1_1 (invSqrtDegree (F := F) col) (gatherAt (F := F) row)) (Host.gather gather_S100000_S1700000x1_S1700000_n_0_n_n_0_1_1 (invSqrtDegree (F := F) col) (gatherAt (F := F) col))

/-- Aggregation of 128-wide rows along the edges. -/
def aggregate128 (row col : (⟨S1700000, .i32⟩ : BufTy).Contents (Elt F)) (wt : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) (mulf (Host.gather gather_S100000x128_S1700000x1_S1700000x128_1_0_n_n_0_1_1128 h (gatherAt (F := F) row)) (broadcastInDim S1700000x128 ![0, 1] bcast_S1700000x1_S1700000x128_0_1 (broadcastInDim S1700000x1 ![0] bcast_S1700000_S1700000x1_0 wt)))

/-- Aggregation of 40-wide rows along the edges. -/
def aggregate40 (row col : (⟨S1700000, .i32⟩ : BufTy).Contents (Elt F)) (wt : (⟨S1700000, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32)) (broadcastInDim S1700000x1 ![0] bcast_S1700000_S1700000x1_0 col) (mulf (Host.gather gather_S100000x40_S1700000x1_S1700000x40_1_0_n_n_0_1_140 h (gatherAt (F := F) row)) (broadcastInDim S1700000x40 ![0, 1] bcast_S1700000x1_S1700000x40_0_1 (broadcastInDim S1700000x1 ![0] bcast_S1700000_S1700000x1_0 wt)))

/-- The log-softmax of every row of `a + b`, `b` a one-row array added to every row: with `z k = a (r, k) + b (0, k)`,
    the entry at (r, j) is `(z j − max z) − log Σ_k exp (z k − max z)`. -/
def logSoftRows {M C : Nat} (a : (⟨2, ![M, C]⟩ : Shape).Idx → EReal) (b : (⟨2, ![1, C]⟩ : Shape).Idx → EReal) :
    (⟨2, ![M, C]⟩ : Shape).Idx → EReal :=
  fun i => (a (ix2 (i 0 : Fin M) (i 1 : Fin C)) + b (ix2 (0 : Fin 1) (i 1 : Fin C))
      - rowMax fun k : Fin C => a (ix2 (i 0 : Fin M) k) + b (ix2 (0 : Fin 1) k))
    - Ideal.log (∑ k' : Fin C, Ideal.exp (a (ix2 (i 0 : Fin M) k') + b (ix2 (0 : Fin 1) k')
        - rowMax fun k : Fin C => a (ix2 (i 0 : Fin M) k) + b (ix2 (0 : Fin 1) k)))

/-- Read at a row and a column. -/
theorem logSoftRows_apply {M C : Nat} (a : (⟨2, ![M, C]⟩ : Shape).Idx → EReal) (b : (⟨2, ![1, C]⟩ : Shape).Idx → EReal)
    (p : Fin M) (q : Fin C) :
    logSoftRows a b (ix2 p q) = (a (ix2 p q) + b (ix2 (0 : Fin 1) q) - rowMax fun k : Fin C => a (ix2 p k) + b (ix2 (0 : Fin 1) k))
      - Ideal.log (∑ k' : Fin C, Ideal.exp (a (ix2 p k') + b (ix2 (0 : Fin 1) k') - rowMax fun k : Fin C => a (ix2 p k) + b (ix2 (0 : Fin 1) k))) := rfl

/-- Each row by itself: equal rows and equal bias rows give equal results at those rows. -/
theorem logSoftRows_congr {M M' C : Nat} (a : (⟨2, ![M, C]⟩ : Shape).Idx → EReal) (b : (⟨2, ![1, C]⟩ : Shape).Idx → EReal)
    (a' : (⟨2, ![M', C]⟩ : Shape).Idx → EReal) (b' : (⟨2, ![1, C]⟩ : Shape).Idx → EReal) (p : Fin M) (p' : Fin M') (q : Fin C)
    (ha : ∀ k : Fin C, a' (ix2 p' k) = a (ix2 p k)) (hb : ∀ k : Fin C, b' (ix2 (0 : Fin 1) k) = b (ix2 (0 : Fin 1) k)) :
    logSoftRows a' b' (ix2 p' q) = logSoftRows a b (ix2 p q) := by
  rw [logSoftRows_apply, logSoftRows_apply]
  simp only [ha, hb]

/-- The whole network on the extended reals, the two biases given as one-row arrays. -/
def network (x : (⟨S100000x256, .f32⟩ : BufTy).Contents (Elt Ideal)) (e : (⟨S2x1600000, .i32⟩ : BufTy).Contents (Elt Ideal))
    (w1 : (⟨S256x128, .f32⟩ : BufTy).Contents (Elt Ideal)) (b1 : (⟨S1x128, .f32⟩ : BufTy).Contents (Elt Ideal))
    (w2 : (⟨S128x40, .f32⟩ : BufTy).Contents (Elt Ideal)) (b2 : (⟨S1x40, .f32⟩ : BufTy).Contents (Elt Ideal)) :
    (⟨S100000x40, .f32⟩ : BufTy).Contents (Elt Ideal) :=
  logSoftRows (M := 100000) (C := 40)
    (aggregate40 (F := Ideal) (firstEnds (F := Ideal) e) (secondEnds (F := Ideal) e) (edgeWeight (F := Ideal) (firstEnds (F := Ideal) e) (secondEnds (F := Ideal) e))
      (rowsTimes (M := 100000) (K := 128) (N := 40)
        (hiddenRows (R := 100000) (K := 128)
          (aggregate128 (F := Ideal) (firstEnds (F := Ideal) e) (secondEnds (F := Ideal) e) (edgeWeight (F := Ideal) (firstEnds (F := Ideal) e) (secondEnds (F := Ideal) e))
            (rowsTimes (M := 100000) (K := 256) (N := 128) x w1))
          b1)
        w2))
    b2

end Cert.Gcn

end
-- ==== Proof.Glue.lean ====
/-
  The kernel's host operations, read a stretch at a time.

  Between its three kernels the program runs plain host operations. Each stretch is read here over ANY contents `W` of
  the buffers it starts from, so that the terms stay small:
    * the opening stretches build the two end-point arrays of the edges (with the self-loops) and every edge's weight
      from the edge array alone;
    * the stretch after the first kernel aggregates that kernel's output along the edges and lays the first bias out
      as a one-row array;
    * the stretch after the second kernel does the same with the second kernel's output and the second bias.
  A buffer a stretch does not write keeps its contents. Everything is by reading: the operations of each stretch,
  composed, are the specification's functions.
-/
import proofs.«138661_j11828339933760_1_alg».proof.Proof.Gen.KernelIdeal.Launch
import proofs.«138661_j11828339933760_1_alg».proof.Proof.Network
import Idealize.ShloMosaic.Lib.StableHlo.Run

set_option maxRecDepth 65536

noncomputable section

namespace Cert.Gcn.Glue

open Idealize.ShloMosaic Idealize.ShloMosaic.TcCoe Idealize.ShloMosaic.StableHlo
open Cert.KernelIdeal Cert.KernelIdeal.Gen

variable {F : FTy → Type} [FloatOps F] (W : Valuation τ sig (Elt F))

/-! ## The opening stretches: the edges' end points and weights -/

/-- What the three opening stretches leave from `W`. -/
abbrev opened : Valuation τ sig (Elt F) := after hostOps0_2 (after hostOps0_1 (after hostOps0 W))

set_option maxHeartbeats 4000000 in
theorem opened_first : (opened W (Proc.devRef .tc main_v3) : (⟨S1700000, .i32⟩ : BufTy).Contents (Elt F)) = firstEnds (F := F) (W (Proc.devRef .tc main_arg1)) := by
  unfold opened; after_results_simp <;> rfl

set_option maxHeartbeats 4000000 in
theorem opened_second : (opened W (Proc.devRef .tc main_v6) : (⟨S1700000, .i32⟩ : BufTy).Contents (Elt F)) = secondEnds (F := F) (W (Proc.devRef .tc main_arg1)) := by
  unfold opened; after_results_simp <;> rfl

set_option maxHeartbeats 4000000 in
theorem opened_weight : (opened W (Proc.devRef .tc main_v29) : (⟨S1700000, .f32⟩ : BufTy).Contents (Elt F))
    = edgeWeight (F := F) (firstEnds (F := F) (W (Proc.devRef .tc main_arg1))) (secondEnds (F := F) (W (Proc.devRef .tc main_arg1))) := by
  unfold opened; after_results_simp <;> rfl

set_option maxHeartbeats 4000000 in
theorem opened_x : opened W (Proc.devRef .tc main_arg0) = W (Proc.devRef .tc main_arg0) := by
  unfold opened; after_results_simp <;> rfl
set_option maxHeartbeats 4000000 in
theorem opened_w1 : opened W (Proc.devRef .tc main_arg2) = W (Proc.devRef .tc main_arg2) := by
  unfold opened; after_results_simp <;> rfl
set_option maxHeartbeats 4000000 in
theorem opened_b1 : opened W (Proc.devRef .tc main_arg3) = W (Proc.devRef .tc main_arg3) := by
  unfold opened; after_results_simp <;> rfl
set_option maxHeartbeats 4000000 in
theorem opened_w2 : opened W (Proc.devRef .tc main_arg4) = W (Proc.devRef .tc main_arg4) := by
  unfold opened; after_results_simp <;> rfl
set_option maxHeartbeats 4000000 in
theorem opened_b2 : opened W (Proc.devRef .tc main_arg5) = W (Proc.devRef .tc main_arg5) := by
  unfold opened; after_results_simp <;> rfl

/-! ## After the first kernel: aggregation of its output, and the first bias as a row -/

set_option maxHeartbeats 4000000 in
theorem mid_aggregate : (after hostOps1 W (Proc.devRef .tc main_v43) : (⟨S100000x128, .f32⟩ : BufTy).Contents (Elt F))
    = aggregate128 (F := F) (W (Proc.devRef .tc main_v3)) (W (Proc.devRef .tc main_v6)) (W (Proc.devRef .tc main_v29)) (W (Proc.devRef .tc main_v30)) := by
  after_results_simp <;> rfl

set_option maxHeartbeats 4000000 in
theorem mid_bias : (after hostOps1 W (Proc.devRef .tc main_v44) : (⟨S1x128, .f32⟩ : BufTy).Contents (Elt F))
    = shapeCast S1x128 (W (Proc.devRef .tc main_arg3) : (⟨S128, .f32⟩ : BufTy).Contents (Elt F)) shapeCasts_S128_S1x128 := by
  after_results_simp <;> rfl

set_option maxHeartbeats 4000000 in
theorem mid_first : after hostOps1 W (Proc.devRef .tc main_v3) = W (Proc.devRef .tc main_v3) := by after_results_simp <;> rfl
set_option maxHeartbeats 4000000 in
theorem mid_second : after hostOps1 W (Proc.devRef .tc main_v6) = W (Proc.devRef .tc main_v6) := by after_results_simp <;> rfl
set_option maxHeartbeats 4000000 in
theorem mid_weight : after hostOps1 W (Proc.devRef .tc main_v29) = W (Proc.devRef .tc main_v29) := by after_results_simp <;> rfl
set_option maxHeartbeats 4000000 in
theorem mid_w2 : after hostOps1 W (Proc.devRef .tc main_arg4) = W (Proc.devRef .tc main_arg4) := by after_results_simp <;> rfl
set_option maxHeartbeats 4000000 in
theorem mid_b2 : after hostOps1 W (Proc.devRef .tc main_arg5) = W (Proc.devRef .tc main_arg5) := by after_results_simp <;> rfl

/-! ## After the second kernel: aggregation of its output, and the second bias as a row -/

set_option maxHeartbeats 4000000 in
theorem late_aggregate : (after hostOps2 W (Proc.devRef .tc main_v58) : (⟨S100000x40, .f32⟩ : BufTy).Contents (Elt F))
    = aggregate40 (F := F) (W (Proc.devRef .tc main_v3)) (W (Proc.devRef .tc main_v6)) (W (Proc.devRef .tc main_v29)) (W (Proc.devRef .tc main_v45)) := by
  after_results_simp <;> rfl

set_option maxHeartbeats 4000000 in
theorem late_bias : (after hostOps2 W (Proc.devRef .tc main_v59) : (⟨S1x40, .f32⟩ : BufTy).Contents (Elt F))
    = shapeCast S1x40 (W (Proc.devRef .tc main_arg5) : (⟨S40, .f32⟩ : BufTy).Contents (Elt F)) shapeCasts_S40_S1x40 := by
  after_results_simp <;> rfl

end Cert.Gcn.Glue

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«138661_j11828339933760_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Layer1.lean ====
/-
  The first layer's product, from blocks to the array.

  The first kernel computes `x · W1` one block of 5000 rows at a time: grid point `t` loads rows 5000·t … 5000·t + 4999 of
  `x` (all 256 columns) and the whole of `W1`, multiplies them on the matrix unit into a zero accumulator, and writes the
  5000 × 128 result back as rows 5000·t … of the output. Rows of a product are products of rows, so what point `t` writes
  back is block `t` of the ONE product `x · W1`; the twenty blocks tile the 100000 rows, so the output array ends as
  `x · W1`. The casts of both operands to bf16 are the identity on the extended reals. Stated at ANY contents `V` of the
  buffers when the kernel is entered.
-/
import proofs.«138661_j11828339933760_1_alg».proof.Proof.Gen.KernelIdeal.Frame
import proofs.«138661_j11828339933760_1_alg».proof.Proof.LibRowsCols
import Idealize.ShloMosaic.Lib.Pipeline.Value
import Idealize.ShloMosaic.Lib.ValueIdx

set_option maxRecDepth 16384

noncomputable section

namespace Cert.Gcn.Layer1

open Idealize.ShloMosaic Idealize.ShloMosaic.TcCoe Idealize.ShloMosaic.ValueIdx Idealize.ShloMosaic.Pipeline
open Cert.KernelIdeal Cert.KernelIdeal.Gen Cert.Dense

variable (V : (c : Dev nD) → (b : Ref sig .tc) → Buf (Elt Ideal) ((c : Thread nD τ).loc b))

theorem origin : (![0, 0] : Fin 2 → Nat) = fun _ => 0 := funext fun a => by fin_cases a <;> rfl

/-- The kernel's contraction record multiplies rows by columns: it contracts the one shared axis of extent 256. -/
theorem rowsCols : RowsCols (R := 5000) (K := 256) (N := 128) dot_S5000x256_S256x128_S5000x128_1_0_0_1_n_n :=
  ⟨rfl, rfl, fun _ _ => rfl, fun _ _ => rfl, fun _ _ => rfl, fun _ _ => rfl⟩

/-- The body's stored value is the product of its two loaded blocks. -/
theorem body_eq (x0 : Vec Ideal S5000x256 .f32) (x1 : Vec Ideal S256x128 .f32) (j : S5000x128.Idx) :
    k0_pay1 (F := Ideal) x0 x1 j = rowsTimes (M := 5000) (K := 256) (N := 128) x0 x1 j := by
  unfold k0_pay1
  exact matmul_zero_apply rowsCols none _ _ j

/-- The index maps, decided over the twenty grid points: the input block of `x` and the output block sit at block
    row `t`, column block 0; `W1` is always its one whole block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block of `x` is row 5000·t + p of `x`. -/
theorem x_block (c : Dev nD) (t : Fin cfg0.N) (p : Fin 5000) (k : Fin 256) (r : Fin 100000) (hr : r.val = t.val * 5000 + p.val) :
    iblk0 V c 0 t (ix2 p k) = V c main_arg0 (ix2 r k) := by
  obtain ⟨e0, e1, -, -, -, -⟩ := index_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 5000 + 1 * p.val = r.val; omega
  | ⟨1, _⟩ => show win0_0.index t (1 : Fin 2) * 256 + 1 * k.val = k.val; omega

/-- Point `t`'s block of `W1` is `W1`. -/
theorem w_block (c : Dev nD) (t : Fin cfg0.N) (k : Fin 256) (q : Fin 128) :
    iblk0 V c 1 t (ix2 k q) = V c main_arg2 (ix2 k q) := by
  obtain ⟨-, -, e2, e3, -, -⟩ := index_facts t
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- WHAT POINT `t` WRITES BACK is block `t` of the whole product. -/
theorem flushed_eq (c : Dev nD) (t : Fin cfg0.N) :
    (dat0 V c).flushed 2 t = ((cfg0.win 2).blk t).view.read (Elt Ideal)
      (rowsTimes (M := 100000) (K := 256) (N := 128) (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨-, -, -, -, e4, e5⟩ := index_facts t
  funext j
  obtain ⟨p, q, rfl⟩ : ∃ (p : Fin 5000) (q : Fin 128), j = ix2 p q := ⟨j 0, j 1, eq_ix2 j⟩
  have hp : p.val < 5000 := p.isLt
  have hN : cfg0.N = 20 := N_0
  have ht : t.val < 20 := by have := t.isLt; omega
  refine (body_eq (iblk0 V c 0 t) (iblk0 V c 1 t) (ix2 p q)).trans ?_
  show rowsTimes (M := 5000) (K := 256) (N := 128) (iblk0 V c 0 t) (iblk0 V c 1 t) (ix2 p q)
    = rowsTimes (M := 100000) (K := 256) (N := 128) (V c main_arg0) (V c main_arg2) (((cfg0.win 2).blk t).view.emb (ix2 p q))
  have hi : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hi]
  exact rowsTimes_of_rows _ _ _ _ (ix2 p q) (ix2 (⟨t.val * 5000 + p.val, by omega⟩ : Fin 100000) q)
    (fun k => x_block V c t p k _ rfl) (fun k => w_block V c t k q)

/-- An index of the output array is in point `t`'s block iff each coordinate is in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` lies in the block of point `r / 5000`: the blocks cover the array. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  refine ⟨⟨(i 0).val / 5000, by have hN : cfg0.N = 20 := N_0; omega⟩, flush0_2 _, ?_⟩
  rw [mem_block]
  obtain ⟨-, -, -, -, e4, e5⟩ := index_facts ⟨(i 0).val / 5000, by have hN : cfg0.N = 20 := N_0; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- THE OUTPUT ARRAY after the first kernel is the whole product `x · W1` of the arrays it found. -/
theorem array_eq (c : Dev nD) :
    (dat0 V c).arrAt 2 cfg0.N = rowsTimes (M := 100000) (K := 256) (N := 128) (V c main_arg0) (V c main_arg2) :=
  (dat0 V c).arrAt_eq_of_cover 2 _ (fun t _ => flushed_eq V c t) cover

end Cert.Gcn.Layer1

end
-- ==== Proof.Layer2.lean ====
/-
  The second layer's product, from blocks to the array.

  The second kernel takes the aggregated first layer `a` (100000 × 128), the first bias as a one-row array `b`, and
  `W2` (128 × 40). Grid point `t` loads rows 5000·t … of `a`, the whole bias row and the whole of `W2`; adds the bias
  row to every row, takes the maximum with zero, and multiplies by `W2` on the matrix unit into a zero accumulator;
  the 5000 × 40 result goes back as rows 5000·t … of the output. The bias and the maximum act on each row by itself and
  rows of a product are products of rows, so point `t` writes back block `t` of the ONE array
  `max(a + b, 0) · W2`; the twenty blocks tile the rows. Stated at ANY contents `V` of the buffers when the kernel is
  entered.
-/
import proofs.«138661_j11828339933760_1_alg».proof.Proof.Gen.KernelIdeal.Frame
import proofs.«138661_j11828339933760_1_alg».proof.Proof.LibRowsCols
import proofs.«138661_j11828339933760_1_alg».proof.Proof.LibRowBias
import Idealize.ShloMosaic.Lib.Pipeline.Value
import Idealize.ShloMosaic.Lib.ValueIdx
import Idealize.ShloMosaic.Lib.ValueLayout

set_option maxRecDepth 16384

noncomputable section

namespace Cert.Gcn.Layer2

open Idealize.ShloMosaic Idealize.ShloMosaic.TcCoe Idealize.ShloMosaic.ValueIdx Idealize.ShloMosaic.Pipeline
open Cert.KernelIdeal Cert.KernelIdeal.Gen Cert.Dense

variable (V : (c : Dev nD) → (b : Ref sig .tc) → Buf (Elt Ideal) ((c : Thread nD τ).loc b))

theorem origin : (![0, 0] : Fin 2 → Nat) = fun _ => 0 := funext fun a => by fin_cases a <;> rfl

/-- The kernel's contraction record multiplies rows by columns: it contracts the one shared axis of extent 128. -/
theorem rowsCols : RowsCols (R := 5000) (K := 128) (N := 40) dot_S5000x128_S128x40_S5000x40_1_0_0_1_n_n :=
  ⟨rfl, rfl, fun _ _ => rfl, fun _ _ => rfl, fun _ _ => rfl, fun _ _ => rfl⟩

/-- The left operand of the body's product, entry by entry: the loaded rows plus the bias row, then the maximum with
    zero. -/
theorem hidden_eq (x0 : Vec Ideal S5000x128 .f32) (x1 : Vec Ideal S1x128 .f32) (p : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p k)
    = hiddenRows (R := 5000) (K := 128) x0 x1 (ix2 p k) := by
  rw [hiddenRows_apply]
  show max (shapeCast S5000x128 x0 shapeCasts_S5000x128_S5000x128 (ix2 p k)
      + broadcastTo S5000x128 (shapeCast S1x128 x1 shapeCasts_S1x128_S1x128) broadcasts_S1x128_S5000x128 (ix2 p k)) _ = _
  rw [shapeCast_self, broadcastTo_1b_ab_apply, shapeCast_self]
  rfl

/-- The body's stored value is the product of (rows + bias, maximum with zero) with the loaded weights. -/
theorem body_eq (x0 : Vec Ideal S5000x128 .f32) (x1 : Vec Ideal S1x128 .f32) (x2 : Vec Ideal S128x40 .f32) (j : S5000x40.Idx) :
    k1_pay1 (F := Ideal) x0 x1 x2 j
      = rowsTimes (M := 5000) (K := 128) (N := 40) (hiddenRows (R := 5000) (K := 128) x0 x1) x2 j := by
  unfold k1_pay1
  refine (matmul_zero_apply rowsCols none _ _ j).trans ?_
  exact Finset.sum_congr rfl fun k _ => congrArg (· * x2 (ix2 k (j 1))) (hidden_eq x0 x1 (j 0) k)

/-- The index maps, decided over the twenty grid points. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block of the aggregated array is its row 5000·t + p. -/
theorem a_block (c : Dev nD) (t : Fin cfg1.N) (p : Fin 5000) (k : Fin 128) (r : Fin 100000) (hr : r.val = t.val * 5000 + p.val) :
    iblk1 V c 0 t (ix2 p k) = V c main_v43 (ix2 r k) := by
  obtain ⟨e0, e1, -, -, -, -, -, -⟩ := index_facts t
  show V c main_v43 (((cfg1.win 0).blk t).view.emb (ix2 p k)) = V c main_v43 (ix2 r k)
  refine congrArg (V c main_v43) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Point `t`'s block of the bias row is the bias row. -/
theorem b_block (c : Dev nD) (t : Fin cfg1.N) (k : Fin 128) :
    iblk1 V c 1 t (ix2 (0 : Fin 1) k) = V c main_v44 (ix2 (0 : Fin 1) k) := by
  obtain ⟨-, -, e2, e3, -, -, -, -⟩ := index_facts t
  show V c main_v44 (((cfg1.win 1).blk t).view.emb (ix2 (0 : Fin 1) k)) = V c main_v44 (ix2 (0 : Fin 1) k)
  refine congrArg (V c main_v44) ?_
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- Point `t`'s block of `W2` is `W2`. -/
theorem w_block (c : Dev nD) (t : Fin cfg1.N) (k : Fin 128) (q : Fin 40) :
    iblk1 V c 2 t (ix2 k q) = V c main_arg4 (ix2 k q) := by
  obtain ⟨-, -, -, -, e4, e5, -, -⟩ := index_facts t
  show V c main_arg4 (((cfg1.win 2).blk t).view.emb (ix2 k q)) = V c main_arg4 (ix2 k q)
  refine congrArg (V c main_arg4) ?_
  funext a; apply Fin.ext
  match a with
  | ⟨0, _⟩ => show win1_2.index t (0 : Fin 2) * 128 + 1 * k.val = k.val; omega
  | ⟨1, _⟩ => show win1_2.index t (1 : Fin 2) * 40 + 1 * q.val = q.val; omega

/-- WHAT POINT `t` WRITES BACK is block `t` of the whole array `max(a + b, 0) · W2`. -/
theorem flushed_eq (c : Dev nD) (t : Fin cfg1.N) :
    (dat1 V c).flushed 3 t = ((cfg1.win 3).blk t).view.read (Elt Ideal)
      (rowsTimes (M := 100000) (K := 128) (N := 40) (hiddenRows (R := 100000) (K := 128) (V c main_v43) (V c main_v44)) (V c main_arg4)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x40) origin]
  obtain ⟨-, -, -, -, -, -, e6, e7⟩ := index_facts t
  funext j
  obtain ⟨p, q, rfl⟩ : ∃ (p : Fin 5000) (q : Fin 40), j = ix2 p q := ⟨j 0, j 1, eq_ix2 j⟩
  have hp : p.val < 5000 := p.isLt
  have hN : cfg1.N = 20 := N_1
  have ht : t.val < 20 := by have := t.isLt; omega
  refine (body_eq (iblk1 V c 0 t) (iblk1 V c 1 t) (iblk1 V c 2 t) (ix2 p q)).trans ?_
  show rowsTimes (M := 5000) (K := 128) (N := 40) (hiddenRows (R := 5000) (K := 128) (iblk1 V c 0 t) (iblk1 V c 1 t)) (iblk1 V c 2 t) (ix2 p q)
    = rowsTimes (M := 100000) (K := 128) (N := 40) (hiddenRows (R := 100000) (K := 128) (V c main_v43) (V c main_v44)) (V c main_arg4)
        (((cfg1.win 3).blk t).view.emb (ix2 p q))
  have hi : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 40 + 1 * q.val = q.val; omega
  rw [hi]
  exact rowsTimes_of_rows _ _ _ _ (ix2 p q) (ix2 (⟨t.val * 5000 + p.val, by omega⟩ : Fin 100000) q)
    (fun k => hiddenRows_congr _ _ _ _ (⟨t.val * 5000 + p.val, by omega⟩ : Fin 100000) p k (a_block V c t p k _ rfl) (b_block V c t k))
    (fun k => w_block V c t k q)

/-- An index of the output array is in point `t`'s block iff each coordinate is in the block's range. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v45).slice (win1_3.rect t)).set ↔ _
  rw [View.set_slice_whole, Rect.mem_set_unit]
  exact Iff.rfl

/-- Row `r` lies in the block of point `r / 5000`: the blocks cover the array. -/
theorem cover (i : S100000x40.Idx) : ∃ t : Fin cfg1.N, (cfg1.win 3).flush t = true ∧ i ∈ ((cfg1.win 3).blk t).view.set := by
  have h0 : (i 0).val < 100000 := (i 0).isLt
  have h1 : (i 1).val < 40 := (i 1).isLt
  refine ⟨⟨(i 0).val / 5000, by have hN : cfg1.N = 20 := N_1; omega⟩, flush1_3 _, ?_⟩
  rw [mem_block]
  obtain ⟨-, -, -, -, -, -, e6, e7⟩ := index_facts ⟨(i 0).val / 5000, by have hN : cfg1.N = 20 := N_1; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ _ ∧ _ < (i 0).val / 5000 * 5000 + 5000; omega
  | ⟨1, _⟩ => show win1_3.index _ (1 : Fin 2) * 40 ≤ (i 1).val ∧ (i 1).val < win1_3.index _ (1 : Fin 2) * 40 + 40; rw [e7]; omega

/-- THE OUTPUT ARRAY after the second kernel is `max(a + b, 0) · W2` of the arrays it found. -/
theorem array_eq (c : Dev nD) :
    (dat1 V c).arrAt 3 cfg1.N
      = rowsTimes (M := 100000) (K := 128) (N := 40) (hiddenRows (R := 100000) (K := 128) (V c main_v43) (V c main_v44)) (V c main_arg4) :=
  (dat1 V c).arrAt_eq_of_cover 3 _ (fun t _ => flushed_eq V c t) cover

end Cert.Gcn.Layer2

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Layer3.lean ====
/-
  The final log-softmax, from blocks to the array.

  The third kernel takes the aggregated second layer `a` (100000 × 40) and the second bias as a one-row array `b`. Grid
  point `t` loads rows 5000·t … of `a` and the whole bias row, adds the bias row to every row, and replaces each row `z`
  by `z − max z − log Σ exp(z − max z)`: the row's maximum by a lane reduction from −∞ kept as a one-column array and
  repeated along the row, the sum of the shifted exponentials by a lane reduction from 0, likewise kept and repeated.
  All of it acts on each row by itself, so point `t` writes back block `t` of the ONE array of row-wise log-softmaxes
  of `a + b`; the twenty blocks tile the rows. Stated at ANY contents `V` of the buffers when the kernel is entered.
-/
import proofs.«138661_j11828339933760_1_alg».proof.Proof.Gen.KernelIdeal.Frame
import proofs.«138661_j11828339933760_1_alg».proof.Proof.Network
import proofs.«138661_j11828339933760_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layer3

open Idealize.ShloMosaic Idealize.ShloMosaic.TcCoe Idealize.ShloMosaic.ValueIdx Idealize.ShloMosaic.Pipeline
open Idealize.ShloMosaic.ColumnLayout
open Cert.KernelIdeal Cert.KernelIdeal.Gen Cert.Gcn Cert.Attn

variable (V : (c : Dev nD) → (b : Ref sig .tc) → Buf (Elt Ideal) ((c : Thread nD τ).loc b))

theorem origin : (![0, 0] : Fin 2 → Nat) = fun _ => 0 := funext fun a => by fin_cases a <;> rfl

/-- The loaded rows plus the bias row, entry by entry. -/
theorem biased_eq (x0 : FVec Ideal S5000x40 .f32) (x1 : FVec Ideal S1x40 .f32) (p : Fin 5000) (k : Fin 40) :
    addf (F := Ideal) (shapeCast S5000x40 x0 shapeCasts_S5000x40_S5000x40)
      (broadcastTo S5000x40 (shapeCast S1x40 x1 shapeCasts_S1x40_S1x40) broadcasts_S1x40_S5000x40) (ix2 p k)
    = x0 (ix2 p k) + x1 (ix2 (0 : Fin 1) k) := by
  show shapeCast S5000x40 x0 shapeCasts_S5000x40_S5000x40 (ix2 p k)
      + broadcastTo S5000x40 (shapeCast S1x40 x1 shapeCasts_S1x40_S1x40) broadcasts_S1x40_S5000x40 (ix2 p k) = _
  rw [shapeCast_self, broadcastTo_1b_ab_apply, shapeCast_self]

/-- Along a row the reduced axis runs over the row's columns. -/
theorem lift_eq (p : Fin 5000) (k : Fin 40) : reduces_S5000x40_S5000.lift (ix1 p) k = ix2 p k := by
  funext a; match a with | ⟨0, _⟩ => rfl | ⟨1, _⟩ => rfl

/-- The lane maximum from −∞ of a block's row is the row's maximum. -/
theorem max_eq (z : FVec Ideal S5000x40 .f32) (p : Fin 5000) (hφ : FKind.Formats .f32)
    (hacc : (0xFF800000#32 : BitVec 32) = FKind.maximumf.neutral .f32 hφ) :
    multiReduction .maximumf [1] S5000 z 0xFF800000#32 reduces_S5000x40_S5000 hφ hacc (ix1 p)
      = rowMax fun k : Fin 40 => z (ix2 p k) :=
  (Ideal.multiReduction_maximumf_single z 0xFF800000#32 reduces_S5000x40_S5000 hφ hacc (ix1 p)).trans
    (congrArg (fun f : Fin 40 → EReal => Finset.fold max (Ideal.ofBits .f32 0xFF800000#32) f Finset.univ)
      (funext fun k => congrArg z (lift_eq p k)))

/-- The lane sum from 0 of a block's row is the row's sum. -/
theorem sum_eq (z : FVec Ideal S5000x40 .f32) (p : Fin 5000) (hφ : FKind.Formats .f32)
    (hacc : (0x00000000#32 : BitVec 32) = FKind.add.neutral .f32 hφ) :
    multiReduction .add [1] S5000 z 0x00000000#32 reduces_S5000x40_S5000 hφ hacc (ix1 p) = ∑ k : Fin 40, z (ix2 p k) :=
  (Ideal.multiReduction_add_single z 0x00000000#32 reduces_S5000x40_S5000 hφ hacc (ix1 p)).trans
    (Finset.sum_congr rfl fun k _ => congrArg z (lift_eq p k))

/-- The row's maximum, kept as a one-column array and repeated along the row, is the row's maximum at every column. -/
theorem max_repeated (z : FVec Ideal S5000x40 .f32) (p : Fin 5000) (c : Fin 40) :
    (broadcastTo S5000x40 (shapeCast S5000x1 (multiReduction .maximumf [1] S5000 z 0xFF800000#32 reduces_S5000x40_S5000 (.inl rfl) rfl) shapeCasts_S5000_S5000x1) broadcasts_S5000x1_S5000x40) (ix2 p c) = rowMax fun k : Fin 40 => z (ix2 p k) :=
  (column_broadcast_apply _ _ _ p c).trans (max_eq z p _ _)

/-- The logarithm of the row's sum of shifted exponentials, kept as a one-column array and repeated along the row. -/
theorem logsum_repeated (z : FVec Ideal S5000x40 .f32) (p : Fin 5000) (q : Fin 40) :
    (broadcastTo S5000x40 (log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40) (ix2 p q)
      = Ideal.log (∑ k' : Fin 40, Ideal.exp (z (ix2 p k') - rowMax fun k : Fin 40 => z (ix2 p k))) :=
  (broadcastTo_a1_ab_apply _ _ p q).trans (congrArg Ideal.log ((shapeCast_a_a1_apply _ _ p (0 : Fin 1)).trans
    ((sum_eq _ p _ _).trans (Finset.sum_congr rfl fun k' _ =>
      congrArg (fun t => Ideal.exp (z (ix2 p k') - t)) (max_repeated z p k')))))

/-- The body from the biased rows `z` on: shift by the row's maximum, subtract the logarithm of the row's sum of
    shifted exponentials. -/
theorem tail_eq (z : FVec Ideal S5000x40 .f32) (p : Fin 5000) (q : Fin 40) :
    subf (subf z (broadcastTo S5000x40 (shapeCast S5000x1 (multiReduction .maximumf [1] S5000 z 0xFF800000#32 reduces_S5000x40_S5000 (.inl rfl) rfl) shapeCasts_S5000_S5000x1) broadcasts_S5000x1_S5000x40)) (broadcastTo S5000x40 (log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40) (ix2 p q)
    = (z (ix2 p q) - rowMax fun k : Fin 40 => z (ix2 p k))
      - Ideal.log (∑ k' : Fin 40, Ideal.exp (z (ix2 p k') - rowMax fun k : Fin 40 => z (ix2 p k))) :=
  congrArg₂ (fun a b : EReal => (z (ix2 p q) - a) - b) (max_repeated z p q) (logsum_repeated z p q)

/-- The body's stored value is the row-wise log-softmax of the loaded rows plus the bias row. -/
theorem body_eq (x0 : Vec Ideal S5000x40 .f32) (x1 : Vec Ideal S1x40 .f32) (p : Fin 5000) (q : Fin 40) :
    k2_pay1 (F := Ideal) x0 x1 (ix2 p q) = logSoftRows (M := 5000) (C := 40) x0 x1 (ix2 p q) := by
  unfold k2_pay1
  refine (tail_eq _ p q).trans ?_
  rw [logSoftRows_apply]
  simp only [biased_eq]

/-- The index maps, decided over the twenty grid points. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of point `t`'s block of the aggregated array is its row 5000·t + p. -/
theorem a_block (c : Dev nD) (t : Fin cfg2.N) (p : Fin 5000) (k : Fin 40) (r : Fin 100000) (hr : r.val = t.val * 5000 + p.val) :
    iblk2 V c 0 t (ix2 p k) = V c main_v58 (ix2 r k) := by
  obtain ⟨e0, e1, -, -, -, -⟩ := index_facts t
  show V c main_v58 (((cfg2.win 0).blk t).view.emb (ix2 p k)) = V c main_v58 (ix2 r k)
  refine congrArg (V c main_v58) ?_
  funext a; apply Fin.ext
  match a with
  | ⟨0, _⟩ => show win2_0.index t (0 : Fin 2) * 5000 + 1 * p.val = r.val; omega
  | ⟨1, _⟩ => show win2_0.index t (1 : Fin 2) * 40 + 1 * k.val = k.val; omega

/-- Point `t`'s block of the bias row is the bias row. -/
theorem b_block (c : Dev nD) (t : Fin cfg2.N) (k : Fin 40) :
    iblk2 V c 1 t (ix2 (0 : Fin 1) k) = V c main_v59 (ix2 (0 : Fin 1) k) := by
  obtain ⟨-, -, e2, e3, -, -⟩ := index_facts t
  show V c main_v59 (((cfg2.win 1).blk t).view.emb (ix2 (0 : Fin 1) k)) = V c main_v59 (ix2 (0 : Fin 1) k)
  refine congrArg (V c main_v59) ?_
  funext a; apply Fin.ext
  match a with
  | ⟨0, _⟩ => show win2_1.index t (0 : Fin 2) * 1 + 1 * 0 = 0; omega
  | ⟨1, _⟩ => show win2_1.index t (1 : Fin 2) * 40 + 1 * k.val = k.val; omega

/-- WHAT POINT `t` WRITES BACK is block `t` of the whole array of row-wise log-softmaxes. -/
theorem flushed_eq (c : Dev nD) (t : Fin cfg2.N) :
    (dat2 V c).flushed 2 t = ((cfg2.win 2).blk t).view.read (Elt Ideal)
      (logSoftRows (M := 100000) (C := 40) (V c main_v58) (V c main_v59)) := by
  show (cfg2.win 2).cut (grid2.coords t) ((dat2 V c).after 2 t) = _
  rw [after2_2]
  unfold out2_2
  rw [View.canon_unit_zero origin]
  simp only [View.ld_unit_zero (S := S5000x40) origin, View.ld_unit_zero (S := S1x40) origin]
  obtain ⟨-, -, -, -, e4, e5⟩ := index_facts t
  funext j
  obtain ⟨p, q, rfl⟩ : ∃ (p : Fin 5000) (q : Fin 40), j = ix2 p q := ⟨j 0, j 1, eq_ix2 j⟩
  have hp : p.val < 5000 := p.isLt
  have hN : cfg2.N = 20 := N_2
  have ht : t.val < 20 := by have := t.isLt; omega
  refine (body_eq (iblk2 V c 0 t) (iblk2 V c 1 t) p q).trans ?_
  show logSoftRows (M := 5000) (C := 40) (iblk2 V c 0 t) (iblk2 V c 1 t) (ix2 p q)
    = logSoftRows (M := 100000) (C := 40) (V c main_v58) (V c main_v59) (((cfg2.win 2).blk t).view.emb (ix2 p q))
  have hi : ((cfg2.win 2).blk t).view.emb (ix2 p q) = ix2 (⟨t.val * 5000 + p.val, by omega⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 40 + 1 * q.val = q.val; omega
  rw [hi]
  exact logSoftRows_congr _ _ _ _ (⟨t.val * 5000 + p.val, by omega⟩ : Fin 100000) p q
    (fun k => a_block V c t p k _ rfl) (fun k => b_block V c t k)

/-- An index of the output array is in point `t`'s block iff each coordinate is in the block's range. -/
theorem mem_block (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v60).slice (win2_2.rect t)).set ↔ _
  rw [View.set_slice_whole, Rect.mem_set_unit]
  exact Iff.rfl

/-- Row `r` lies in the block of point `r / 5000`: the blocks cover the array. -/
theorem cover (i : S100000x40.Idx) : ∃ t : Fin cfg2.N, (cfg2.win 2).flush t = true ∧ i ∈ ((cfg2.win 2).blk t).view.set := by
  have h0 : (i 0).val < 100000 := (i 0).isLt
  have h1 : (i 1).val < 40 := (i 1).isLt
  refine ⟨⟨(i 0).val / 5000, by have hN : cfg2.N = 20 := N_2; omega⟩, flush2_2 _, ?_⟩
  rw [mem_block]
  obtain ⟨-, -, -, -, e4, e5⟩ := index_facts ⟨(i 0).val / 5000, by have hN : cfg2.N = 20 := N_2; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 40 ≤ (i 1).val ∧ (i 1).val < win2_2.index _ (1 : Fin 2) * 40 + 40; rw [e5]; omega

/-- THE OUTPUT ARRAY after the third kernel is the row-wise log-softmax of `a + b` of the arrays it found. -/
theorem array_eq (c : Dev nD) :
    (dat2 V c).arrAt 2 cfg2.N = logSoftRows (M := 100000) (C := 40) (V c main_v58) (V c main_v59) :=
  (dat2 V c).arrAt_eq_of_cover 2 _ (fun t _ => flushed_eq V c t) cover

end Cert.Gcn.Layer3

end
-- ==== Proof.KernelValue.lean ====
/-
  The kernel's result array, as the network of its arguments.

  The buffer contents at the boundaries between @main's segments are threaded from the launch memory to the end:
    * the edges' end points, their weights and the second bias are computed (or given) before the first kernel, and
      no later segment writes them: they reach every later boundary unchanged;
    * the first kernel leaves `x · W1` (its blocks tile the rows); the next stretch aggregates it along the edges and
      lays the first bias out as a row;
    * the second kernel leaves `max(a1 + b1, 0) · W2`; the next stretch aggregates it and lays the second bias out;
    * the third kernel leaves the row-wise log-softmax of `a2 + b2`.
  Composed, the result array is the specification's `network` of the six argument arrays.
-/
import proofs.«138661_j11828339933760_1_alg».proof.Proof.Gen.KernelIdeal.Frame
import proofs.«138661_j11828339933760_1_alg».proof.Proof.Network
import proofs.«138661_j11828339933760_1_alg».proof.Proof.Glue
import proofs.«138661_j11828339933760_1_alg».proof.Proof.Layer1
import proofs.«138661_j11828339933760_1_alg».proof.Proof.Layer2
import proofs.«138661_j11828339933760_1_alg».proof.Proof.Layer3

set_option maxRecDepth 16384

noncomputable section

namespace Cert.Gcn.KernelValue

open Idealize.ShloMosaic Idealize.ShloMosaic.TcCoe Idealize.ShloMosaic.StableHlo
open Cert.KernelIdeal Cert.KernelIdeal.Gen Cert.Gcn Cert.Dense

variable (m : (ℓ : Loc nD τ sig) → Buf (Elt Ideal) ℓ) (ρ : Dev nD → PrngReg) (c : Dev nD)

/-! ## What is settled before the first kernel and never written again -/

theorem first_3 : (W3 m ρ c (Proc.devRef .tc main_v3) : (⟨S1700000, .i32⟩ : BufTy).Contents (Elt Ideal)) = firstEnds (F := Ideal) (m ((c : Thread nD τ).loc main_arg1)) := Glue.opened_first (W0 m ρ c)
theorem first_4 : (W4 m ρ c (Proc.devRef .tc main_v3) : (⟨S1700000, .i32⟩ : BufTy).Contents (Elt Ideal)) = firstEnds (F := Ideal) (m ((c : Thread nD τ).loc main_arg1)) := (W4_of_ne m ρ c main_v3 (by decide)).trans (first_3 m ρ c)
theorem first_5 : (W5 m ρ c (Proc.devRef .tc main_v3) : (⟨S1700000, .i32⟩ : BufTy).Contents (Elt Ideal)) = firstEnds (F := Ideal) (m ((c : Thread nD τ).loc main_arg1)) := (Glue.mid_first (W4 m ρ c)).trans (first_4 m ρ c)
theorem first_6 : (W6 m ρ c (Proc.devRef .tc main_v3) : (⟨S1700000, .i32⟩ : BufTy).Contents (Elt Ideal)) = firstEnds (F := Ideal) (m ((c : Thread nD τ).loc main_arg1)) := (W6_of_ne m ρ c main_v3 (by decide)).trans (first_5 m ρ c)

theorem second_3 : (W3 m ρ c (Proc.devRef .tc main_v6) : (⟨S1700000, .i32⟩ : BufTy).Contents (Elt Ideal)) = secondEnds (F := Ideal) (m ((c : Thread nD τ).loc main_arg1)) := Glue.opened_second (W0 m ρ c)
theorem second_4 : (W4 m ρ c (Proc.devRef .tc main_v6) : (⟨S1700000, .i32⟩ : BufTy).Contents (Elt Ideal)) = secondEnds (F := Ideal) (m ((c : Thread nD τ).loc main_arg1)) := (W4_of_ne m ρ c main_v6 (by decide)).trans (second_3 m ρ c)
theorem second_5 : (W5 m ρ c (Proc.devRef .tc main_v6) : (⟨S1700000, .i32⟩ : BufTy).Contents (Elt Ideal)) = secondEnds (F := Ideal) (m ((c : Thread nD τ).loc main_arg1)) := (Glue.mid_second (W4 m ρ c)).trans (second_4 m ρ c)
theorem second_6 : (W6 m ρ c (Proc.devRef .tc main_v6) : (⟨S1700000, .i32⟩ : BufTy).Contents (Elt Ideal)) = secondEnds (F := Ideal) (m ((c : Thread nD τ).loc main_arg1)) := (W6_of_ne m ρ c main_v6 (by decide)).trans (second_5 m ρ c)

theorem weight_3 : (W3 m ρ c (Proc.devRef .tc main_v29) : (⟨S1700000, .f32⟩ : BufTy).Contents (Elt Ideal)) = edgeWeight (F := Ideal) (firstEnds (F := Ideal) (m ((c : Thread nD τ).loc main_arg1))) (secondEnds (F := Ideal) (m ((c : Thread nD τ).loc main_arg1))) := Glue.opened_weight (W0 m ρ c)
theorem weight_4 : (W4 m ρ c (Proc.devRef .tc main_v29) : (⟨S1700000, .f32⟩ : BufTy).Contents (Elt Ideal)) = edgeWeight (F := Ideal) (firstEnds (F := Ideal) (m ((c : Thread nD τ).loc main_arg1))) (secondEnds (F := Ideal) (m ((c : Thread nD τ).loc main_arg1))) := (W4_of_ne m ρ c main_v29 (by decide)).trans (weight_3 m ρ c)
theorem weight_5 : (W5 m ρ c (Proc.devRef .tc main_v29) : (⟨S1700000, .f32⟩ : BufTy).Contents (Elt Ideal)) = edgeWeight (F := Ideal) (firstEnds (F := Ideal) (m ((c : Thread nD τ).loc main_arg1))) (secondEnds (F := Ideal) (m ((c : Thread nD τ).loc main_arg1))) := (Glue.mid_weight (W4 m ρ c)).trans (weight_4 m ρ c)
theorem weight_6 : (W6 m ρ c (Proc.devRef .tc main_v29) : (⟨S1700000, .f32⟩ : BufTy).Contents (Elt Ideal)) = edgeWeight (F := Ideal) (firstEnds (F := Ideal) (m ((c : Thread nD τ).loc main_arg1))) (secondEnds (F := Ideal) (m ((c : Thread nD τ).loc main_arg1))) := (W6_of_ne m ρ c main_v29 (by decide)).trans (weight_5 m ρ c)

theorem b2_3 : (W3 m ρ c (Proc.devRef .tc main_arg5) : (⟨S40, .f32⟩ : BufTy).Contents (Elt Ideal)) = (m ((c : Thread nD τ).loc main_arg5)) := Glue.opened_b2 (W0 m ρ c)
theorem b2_4 : (W4 m ρ c (Proc.devRef .tc main_arg5) : (⟨S40, .f32⟩ : BufTy).Contents (Elt Ideal)) = (m ((c : Thread nD τ).loc main_arg5)) := (W4_of_ne m ρ c main_arg5 (by decide)).trans (b2_3 m ρ c)
theorem b2_5 : (W5 m ρ c (Proc.devRef .tc main_arg5) : (⟨S40, .f32⟩ : BufTy).Contents (Elt Ideal)) = (m ((c : Thread nD τ).loc main_arg5)) := (Glue.mid_b2 (W4 m ρ c)).trans (b2_4 m ρ c)
theorem b2_6 : (W6 m ρ c (Proc.devRef .tc main_arg5) : (⟨S40, .f32⟩ : BufTy).Contents (Elt Ideal)) = (m ((c : Thread nD τ).loc main_arg5)) := (W6_of_ne m ρ c main_arg5 (by decide)).trans (b2_5 m ρ c)

/-! ## The first layer -/

theorem x_3 : V3 m ρ c main_arg0 = (m ((c : Thread nD τ).loc main_arg0)) := Glue.opened_x (W0 m ρ c)
theorem w1_3 : V3 m ρ c main_arg2 = (m ((c : Thread nD τ).loc main_arg2)) := Glue.opened_w1 (W0 m ρ c)

/-- After the first kernel its output array is `x · W1`. -/
theorem layer1_4 : (W4 m ρ c (Proc.devRef .tc main_v30) : (⟨S100000x128, .f32⟩ : BufTy).Contents (Elt Ideal)) = rowsTimes (M := 100000) (K := 256) (N := 128) (m ((c : Thread nD τ).loc main_arg0)) (m ((c : Thread nD τ).loc main_arg2)) := by
  refine (W4_arr m ρ c 2).trans ((Layer1.array_eq (V3 m ρ) c).trans ?_)
  rw [x_3, w1_3]

/-- Entering the second kernel: the aggregated first layer. -/
theorem agg1_5 : (V5 m ρ c main_v43 : (⟨S100000x128, .f32⟩ : BufTy).Contents (Elt Ideal)) = aggregate128 (F := Ideal) (firstEnds (F := Ideal) (m ((c : Thread nD τ).loc main_arg1))) (secondEnds (F := Ideal) (m ((c : Thread nD τ).loc main_arg1))) (edgeWeight (F := Ideal) (firstEnds (F := Ideal) (m ((c : Thread nD τ).loc main_arg1))) (secondEnds (F := Ideal) (m ((c : Thread nD τ).loc main_arg1)))) (rowsTimes (M := 100000) (K := 256) (N := 128) (m ((c : Thread nD τ).loc main_arg0)) (m ((c : Thread nD τ).loc main_arg2))) := by
  refine (Glue.mid_aggregate (W4 m ρ c)).trans ?_
  rw [first_4, second_4, weight_4, layer1_4]

theorem b1_4 : (W4 m ρ c (Proc.devRef .tc main_arg3) : (⟨S128, .f32⟩ : BufTy).Contents (Elt Ideal)) = (m ((c : Thread nD τ).loc main_arg3)) :=
  (W4_of_ne m ρ c main_arg3 (by decide)).trans (Glue.opened_b1 (W0 m ρ c))
theorem w2_4 : (W4 m ρ c (Proc.devRef .tc main_arg4) : (⟨S128x40, .f32⟩ : BufTy).Contents (Elt Ideal)) = (m ((c : Thread nD τ).loc main_arg4)) :=
  (W4_of_ne m ρ c main_arg4 (by decide)).trans (Glue.opened_w2 (W0 m ρ c))

/-- Entering the second kernel: the first bias as a row. -/
theorem b1_5 : (V5 m ρ c main_v44 : (⟨S1x128, .f32⟩ : BufTy).Contents (Elt Ideal)) = shapeCast S1x128 ((m ((c : Thread nD τ).loc main_arg3)) : (⟨S128, .f32⟩ : BufTy).Contents (Elt Ideal)) shapeCasts_S128_S1x128 := by
  refine (Glue.mid_bias (W4 m ρ c)).trans ?_
  rw [b1_4]

theorem w2_5 : (V5 m ρ c main_arg4 : (⟨S128x40, .f32⟩ : BufTy).Contents (Elt Ideal)) = (m ((c : Thread nD τ).loc main_arg4)) :=
  (Glue.mid_w2 (W4 m ρ c)).trans (w2_4 m ρ c)

/-! ## The second layer -/

/-- After the second kernel its output array is `max(a1 + b1, 0) · W2`. -/
theorem layer2_6 : (W6 m ρ c (Proc.devRef .tc main_v45) : (⟨S100000x40, .f32⟩ : BufTy).Contents (Elt Ideal)) = rowsTimes (M := 100000) (K := 128) (N := 40) (hiddenRows (R := 100000) (K := 128) (aggregate128 (F := Ideal) (firstEnds (F := Ideal) (m ((c : Thread nD τ).loc main_arg1))) (secondEnds (F := Ideal) (m ((c : Thread nD τ).loc main_arg1))) (edgeWeight (F := Ideal) (firstEnds (F := Ideal) (m ((c : Thread nD τ).loc main_arg1))) (secondEnds (F := Ideal) (m ((c : Thread nD τ).loc main_arg1)))) (rowsTimes (M := 100000) (K := 256) (N := 128) (m ((c : Thread nD τ).loc main_arg0)) (m ((c : Thread nD τ).loc main_arg2)))) (shapeCast S1x128 ((m ((c : Thread nD τ).loc main_arg3)) : (⟨S128, .f32⟩ : BufTy).Contents (Elt Ideal)) shapeCasts_S128_S1x128)) (m ((c : Thread nD τ).loc main_arg4)) := by
  refine (W6_arr m ρ c 3).trans ((Layer2.array_eq (V5 m ρ) c).trans ?_)
  rw [agg1_5, b1_5, w2_5]

/-- Entering the third kernel: the aggregated second layer, and the second bias as a row. -/
theorem agg2_7 : (V7 m ρ c main_v58 : (⟨S100000x40, .f32⟩ : BufTy).Contents (Elt Ideal)) = aggregate40 (F := Ideal) (firstEnds (F := Ideal) (m ((c : Thread nD τ).loc main_arg1))) (secondEnds (F := Ideal) (m ((c : Thread nD τ).loc main_arg1))) (edgeWeight (F := Ideal) (firstEnds (F := Ideal) (m ((c : Thread nD τ).loc main_arg1))) (secondEnds (F := Ideal) (m ((c : Thread nD τ).loc main_arg1)))) (rowsTimes (M := 100000) (K := 128) (N := 40) (hiddenRows (R := 100000) (K := 128) (aggregate128 (F := Ideal) (firstEnds (F := Ideal) (m ((c : Thread nD τ).loc main_arg1))) (secondEnds (F := Ideal) (m ((c : Thread nD τ).loc main_arg1))) (edgeWeight (F := Ideal) (firstEnds (F := Ideal) (m ((c : Thread nD τ).loc main_arg1))) (secondEnds (F := Ideal) (m ((c : Thread nD τ).loc main_arg1)))) (rowsTimes (M := 100000) (K := 256) (N := 128) (m ((c : Thread nD τ).loc main_arg0)) (m ((c : Thread nD τ).loc main_arg2)))) (shapeCast S1x128 ((m ((c : Thread nD τ).loc main_arg3)) : (⟨S128, .f32⟩ : BufTy).Contents (Elt Ideal)) shapeCasts_S128_S1x128)) (m ((c : Thread nD τ).loc main_arg4))) := by
  refine (Glue.late_aggregate (W6 m ρ c)).trans ?_
  rw [first_6, second_6, weight_6, layer2_6]

theorem b2_7 : (V7 m ρ c main_v59 : (⟨S1x40, .f32⟩ : BufTy).Contents (Elt Ideal)) = shapeCast S1x40 ((m ((c : Thread nD τ).loc main_arg5)) : (⟨S40, .f32⟩ : BufTy).Contents (Elt Ideal)) shapeCasts_S40_S1x40 := by
  refine (Glue.late_bias (W6 m ρ c)).trans ?_
  rw [b2_6]

/-! ## The result -/

/-- THE RESULT ARRAY at the last boundary is the network of the six argument arrays. -/
theorem result_eq : (W8 m ρ c (Proc.devRef .tc main_v60) : (⟨S100000x40, .f32⟩ : BufTy).Contents (Elt Ideal))
    = network (m ((c : Thread nD τ).loc main_arg0)) (m ((c : Thread nD τ).loc main_arg1)) (m ((c : Thread nD τ).loc main_arg2)) (shapeCast S1x128 ((m ((c : Thread nD τ).loc main_arg3)) : (⟨S128, .f32⟩ : BufTy).Contents (Elt Ideal)) shapeCasts_S128_S1x128) (m ((c : Thread nD τ).loc main_arg4)) (shapeCast S1x40 ((m ((c : Thread nD τ).loc main_arg5)) : (⟨S40, .f32⟩ : BufTy).Contents (Elt Ideal)) shapeCasts_S40_S1x40) := by
  refine (W8_arr m ρ c 2).trans ((Layer3.array_eq (V7 m ρ) c).trans ?_)
  rw [agg2_7, b2_7]
  rfl

end Cert.Gcn.KernelValue

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.RefRead.lean ====
/-
  The reference's host operations, read a stretch at a time.

  The reference is one straight line of 98 host operations; after its run each buffer holds the fold of those operations
  over the launch memory. The fold is cut into five stretches, and each stretch is read over ANY contents `W` of the
  buffers it starts from:
    1. the edge bookkeeping: the two end-point arrays of the edges (with the self-loops) and every edge's weight;
    2. `x · W1` as one `dot_general`, and its aggregation along the edges;
    3. the first bias added to every row, the maximum with zero, and the product with `W2` as one `dot_general`;
    4. the aggregation of that product along the edges;
    5. the second bias added to every row, and the row-wise log-softmax (a maximum-reduction from −∞, one more maximum
       with −∞, the shifted exponentials' sum-reduction from 0, its logarithm).
  A value written through an outlined function's typed reference and read back is the value. A buffer a stretch does
  not write keeps its contents. Stretches 1, 2 and 4 are, operation for operation, the kernel's host stretches, so
  they read as the same specification functions.
-/
import proofs.«138661_j11828339933760_1_alg».proof.Proof.RefRun
import proofs.«138661_j11828339933760_1_alg».proof.Proof.Network
import proofs.«138661_j11828339933760_1_alg».proof.Proof.LibHostStretches
import Idealize.ShloMosaic.Lib.StableHlo.Run

set_option maxRecDepth 65536

noncomputable section

namespace Cert.Gcn.RefRead

open Idealize.ShloMosaic Idealize.ShloMosaic.TcCoe Idealize.ShloMosaic.StableHlo
open Cert.ReferenceIdeal Cert.ReferenceIdeal.Gen Cert.ReferenceIdeal.ValueP Cert.HostLine

variable {F : FTy → Type} [FloatOps F]

/-! ## The dense stages as the reference spells them -/

/-- `x · W1`. -/
def dense1 (x : (⟨S100000x256, .f32⟩ : BufTy).Contents (Elt F)) (w : (⟨S256x128, .f32⟩ : BufTy).Contents (Elt F)) : (⟨S100000x128, .f32⟩ : BufTy).Contents (Elt F) :=
  Host.dotGeneral dot_S100000x256_S256x128_S100000x128_1_0_0_1_n_n none x w

/-- `max(a + b, 0) · W2`, the bias a vector repeated down the rows. -/
def dense2 (a : (⟨S100000x128, .f32⟩ : BufTy).Contents (Elt F)) (b : (⟨S128, .f32⟩ : BufTy).Contents (Elt F)) (w : (⟨S128x40, .f32⟩ : BufTy).Contents (Elt F)) : (⟨S100000x40, .f32⟩ : BufTy).Contents (Elt F) :=
  Host.dotGeneral dot_S100000x128_S128x40_S100000x40_1_0_0_1_n_n none
    (maximumf (addf a (broadcastInDim S100000x128 ![0, 1] bcast_S1x128_S100000x128_0_1 (broadcastInDim S1x128 ![1] bcast_S128_S1x128_1 b)))
      (broadcastInDim S100000x128 ![] bcast_S_S100000x128 (constant (F := F) S_ .f32 0x00000000#32))) w

/-- The rows of `a + b` (the bias a vector repeated down the rows). -/
def biased (a : (⟨S100000x40, .f32⟩ : BufTy).Contents (Elt F)) (b : (⟨S40, .f32⟩ : BufTy).Contents (Elt F)) : (⟨S100000x40, .f32⟩ : BufTy).Contents (Elt F) :=
  addf a (broadcastInDim S100000x40 ![0, 1] bcast_S1x40_S100000x40_0_1 (broadcastInDim S1x40 ![1] bcast_S40_S1x40_1 b))

/-- Each row's maximum, reduced from −∞ and taken once more against −∞. -/
def rowMaxima (z : (⟨S100000x40, .f32⟩ : BufTy).Contents (Elt F)) : (⟨S100000, .f32⟩ : BufTy).Contents (Elt F) :=
  maximumf (broadcastInDim S100000 ![] bcast_S_S100000 (constant (F := F) S_ .f32 0xFF800000#32))
    (Host.reduce FloatOps.maximumf z (constant (F := F) S_ .f32 0xFF800000#32) reducesTo_S100000x40_S100000_d1 h_S_)

/-- Each entry's distance to its row's maximum. -/
def shifted (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0 (rowMaxima (F := F) z)))

/-- The row-wise log-softmax: the shifted entries minus the logarithm of the row's sum of shifted exponentials. -/
def logSoftmax (z : (⟨S100000x40, .f32⟩ : BufTy).Contents (Elt F)) : (⟨S100000x40, .f32⟩ : BufTy).Contents (Elt F) :=
  subf (shifted (F := F) z) (broadcastInDim S100000x40 ![0, 1] bcast_S100000x1_S100000x40_0_1 (Host.log (broadcastInDim S100000x1 ![0] bcast_S100000_S100000x1_0
    (Host.reduceAdd (Host.exp (shifted (F := F) z)) (constant (F := F) S_ .f32 0x00000000#32) reducesTo_S100000x40_S100000_d1 h_S_))))

/-! ## The five stretches -/

variable (W : Valuation τ sig (Elt F))

abbrev ops1 : List (HloOp τ sig (Elt F)) := ops.take 40
abbrev rest1 : List (HloOp τ sig (Elt F)) := ops.drop 40
abbrev ops2 : List (HloOp τ sig (Elt F)) := (rest1 (F := F)).take 17
abbrev rest2 : List (HloOp τ sig (Elt F)) := (rest1 (F := F)).drop 17
abbrev ops3 : List (HloOp τ sig (Elt F)) := (rest2 (F := F)).take 7
abbrev rest3 : List (HloOp τ sig (Elt F)) := (rest2 (F := F)).drop 7
abbrev ops4 : List (HloOp τ sig (Elt F)) := (rest3 (F := F)).take 16
abbrev ops5 : List (HloOp τ sig (Elt F)) := (rest3 (F := F)).drop 16

/-- The whole line is the five stretches one after the other. -/
theorem cut : after ops W = after ops5 (after ops4 (after ops3 (after ops2 (after ops1 W)))) :=
  (after_split 40 ops W).trans ((after_split 17 rest1 _).trans ((after_split 7 rest2 _).trans (after_split 16 rest3 _)))

/-- Reads one stretch: the stretch as a literal list, every operation's result at its buffer, the typed references'
    transports cancelled. -/
local macro "read_stretch" : tactic =>
  `(tactic| (simp only [ops1, rest1, ops2, rest2, ops3, rest3, ops4, ops5, ops, List.take_succ_cons, List.take_zero, List.drop_succ_cons, List.drop_zero]
             after_results_simp <;> (try simp only [ofBuf_toBuf]) <;> rfl))

/-! ### 1. The edges' end points and weights -/

set_option maxHeartbeats 8000000 in
theorem s1_first : (after ops1 W (Proc.devRef .tc main_v3) : (⟨S1700000, .i32⟩ : BufTy).Contents (Elt F)) = Cert.Gcn.firstEnds (F := F) (W (Proc.devRef .tc main_arg1)) := by read_stretch
set_option maxHeartbeats 8000000 in
theorem s1_second : (after ops1 W (Proc.devRef .tc main_v6) : (⟨S1700000, .i32⟩ : BufTy).Contents (Elt F)) = Cert.Gcn.secondEnds (F := F) (W (Proc.devRef .tc main_arg1)) := by read_stretch
set_option maxHeartbeats 8000000 in
theorem s1_weight : (after ops1 W (Proc.devRef .tc main_v29) : (⟨S1700000, .f32⟩ : BufTy).Contents (Elt F))
    = Cert.Gcn.edgeWeight (F := F) (Cert.Gcn.firstEnds (F := F) (W (Proc.devRef .tc main_arg1))) (Cert.Gcn.secondEnds (F := F) (W (Proc.devRef .tc main_arg1))) := by read_stretch
set_option maxHeartbeats 8000000 in
theorem s1_arg0 : after ops1 W (Proc.devRef .tc main_arg0) = W (Proc.devRef .tc main_arg0) := by read_stretch
set_option maxHeartbeats 8000000 in
theorem s1_arg2 : after ops1 W (Proc.devRef .tc main_arg2) = W (Proc.devRef .tc main_arg2) := by read_stretch
set_option maxHeartbeats 8000000 in
theorem s1_arg3 : after ops1 W (Proc.devRef .tc main_arg3) = W (Proc.devRef .tc main_arg3) := by read_stretch
set_option maxHeartbeats 8000000 in
theorem s1_arg4 : after ops1 W (Proc.devRef .tc main_arg4) = W (Proc.devRef .tc main_arg4) := by read_stretch
set_option maxHeartbeats 8000000 in
theorem s1_arg5 : after ops1 W (Proc.devRef .tc main_arg5) = W (Proc.devRef .tc main_arg5) := by read_stretch

/-! ### 2. The first product and its aggregation -/

set_option maxHeartbeats 8000000 in
theorem s2_aggregate : (after ops2 W (Proc.devRef .tc main_v43) : (⟨S100000x128, .f32⟩ : BufTy).Contents (Elt F))
    = Cert.Gcn.aggregate128 (F := F) (W (Proc.devRef .tc main_v3)) (W (Proc.devRef .tc main_v6)) (W (Proc.devRef .tc main_v29)) (dense1 (F := F) (W (Proc.devRef .tc main_arg0)) (W (Proc.devRef .tc main_arg2))) := by read_stretch
set_option maxHeartbeats 8000000 in
theorem s2_v3 : after ops2 W (Proc.devRef .tc main_v3) = W (Proc.devRef .tc main_v3) := by read_stretch
set_option maxHeartbeats 8000000 in
theorem s2_v6 : after ops2 W (Proc.devRef .tc main_v6) = W (Proc.devRef .tc main_v6) := by read_stretch
set_option maxHeartbeats 8000000 in
theorem s2_v29 : after ops2 W (Proc.devRef .tc main_v29) = W (Proc.devRef .tc main_v29) := by read_stretch
set_option maxHeartbeats 8000000 in
theorem s2_arg3 : after ops2 W (Proc.devRef .tc main_arg3) = W (Proc.devRef .tc main_arg3) := by read_stretch
set_option maxHeartbeats 8000000 in
theorem s2_arg4 : after ops2 W (Proc.devRef .tc main_arg4) = W (Proc.devRef .tc main_arg4) := by read_stretch
set_option maxHeartbeats 8000000 in
theorem s2_arg5 : after ops2 W (Proc.devRef .tc main_arg5) = W (Proc.devRef .tc main_arg5) := by read_stretch

/-! ### 3. Bias, maximum with zero, the second product -/

set_option maxHeartbeats 8000000 in
theorem s3_dense : (after ops3 W (Proc.devRef .tc main_v48) : (⟨S100000x40, .f32⟩ : BufTy).Contents (Elt F))
    = dense2 (F := F) (W (Proc.devRef .tc main_v43)) (W (Proc.devRef .tc main_arg3)) (W (Proc.devRef .tc main_arg4)) := by read_stretch
set_option maxHeartbeats 8000000 in
theorem s3_v3 : after ops3 W (Proc.devRef .tc main_v3) = W (Proc.devRef .tc main_v3) := by read_stretch
set_option maxHeartbeats 8000000 in
theorem s3_v6 : after ops3 W (Proc.devRef .tc main_v6) = W (Proc.devRef .tc main_v6) := by read_stretch
set_option maxHeartbeats 8000000 in
theorem s3_v29 : after ops3 W (Proc.devRef .tc main_v29) = W (Proc.devRef .tc main_v29) := by read_stretch
set_option maxHeartbeats 8000000 in
theorem s3_arg5 : after ops3 W (Proc.devRef .tc main_arg5) = W (Proc.devRef .tc main_arg5) := by read_stretch

/-! ### 4. The second aggregation -/

set_option maxHeartbeats 8000000 in
theorem s4_aggregate : (after ops4 W (Proc.devRef .tc main_v61) : (⟨S100000x40, .f32⟩ : BufTy).Contents (Elt F))
    = Cert.Gcn.aggregate40 (F := F) (W (Proc.devRef .tc main_v3)) (W (Proc.devRef .tc main_v6)) (W (Proc.devRef .tc main_v29)) (W (Proc.devRef .tc main_v48)) := by read_stretch
set_option maxHeartbeats 8000000 in
theorem s4_arg5 : after ops4 W (Proc.devRef .tc main_arg5) = W (Proc.devRef .tc main_arg5) := by read_stretch

/-! ### 5. Bias and the row-wise log-softmax -/

set_option maxHeartbeats 8000000 in
theorem s5_result : (after ops5 W (Proc.devRef .tc main_v65) : (⟨S100000x40, .f32⟩ : BufTy).Contents (Elt F))
    = logSoftmax (F := F) (biased (F := F) (W (Proc.devRef .tc main_v61)) (W (Proc.devRef .tc main_arg5))) := by read_stretch

/-! ## The whole line -/

/-- THE REFERENCE'S RESULT, as the fold of its operations over any starting contents: the specification's edge
    bookkeeping and aggregations around the reference's own spelling of the three dense stages. -/
theorem result_eq : (after ops W (Proc.devRef .tc main_v65) : (⟨S100000x40, .f32⟩ : BufTy).Contents (Elt F))
    = logSoftmax (F := F) (biased (F := F)
        (Cert.Gcn.aggregate40 (F := F) (Cert.Gcn.firstEnds (F := F) (W (Proc.devRef .tc main_arg1))) (Cert.Gcn.secondEnds (F := F) (W (Proc.devRef .tc main_arg1)))
          (Cert.Gcn.edgeWeight (F := F) (Cert.Gcn.firstEnds (F := F) (W (Proc.devRef .tc main_arg1))) (Cert.Gcn.secondEnds (F := F) (W (Proc.devRef .tc main_arg1))))
          (dense2 (F := F)
            (Cert.Gcn.aggregate128 (F := F) (Cert.Gcn.firstEnds (F := F) (W (Proc.devRef .tc main_arg1))) (Cert.Gcn.secondEnds (F := F) (W (Proc.devRef .tc main_arg1)))
              (Cert.Gcn.edgeWeight (F := F) (Cert.Gcn.firstEnds (F := F) (W (Proc.devRef .tc main_arg1))) (Cert.Gcn.secondEnds (F := F) (W (Proc.devRef .tc main_arg1))))
              (dense1 (F := F) (W (Proc.devRef .tc main_arg0)) (W (Proc.devRef .tc main_arg2))))
            (W (Proc.devRef .tc main_arg3)) (W (Proc.devRef .tc main_arg4))))
        (W (Proc.devRef .tc main_arg5))) := by
  rw [cut W, s5_result, s4_aggregate, s4_arg5, s3_dense, s3_v3, s3_v6, s3_v29, s3_arg5, s2_aggregate, s2_v3, s2_v6, s2_v29, s2_arg3, s2_arg4, s2_arg5,
    s1_first, s1_second, s1_weight, s1_arg0, s1_arg2, s1_arg3, s1_arg4, s1_arg5]

end Cert.Gcn.RefRead

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.LibHostRowReduce.lean ====
/-
  The host's reductions along the columns of a matrix, and the host's row-wise log-softmax, read at an entry — general
  in the extents m and n, in the two initial words, and with every shape fact taken as a hypothesis, so that nothing
  is ever evaluated at the extents.

  A `stablehlo.reduce` over axis 1 of an [m, n] array folds, for each row, over the row's n entries:
    * `lift_row`: the reduced index `p` with column `k` put back is (p, k);
    * `reduce_max_row`: from the f32 word `w`, the reduce with a maximum body at row `p` is the fold of `max` from that
      word's value over the row (the word is carried, never evaluated);
    * `reduce_add_row`: the sum-reduction from an initial value at row `p` is that value plus the row's sum.
  A scalar constant repeated into an array reads the constant (`splat_apply`); a vector kept as a one-column array,
  and a one-column array repeated along the rows, read the vector at the row (`column_keep`, `column_repeat`).

  The host's log-softmax of an [m, n] array `z` (jax.nn.log_softmax along axis 1): each row's maximum reduced from the
  word `w` and taken once more against `w`'s value (which changes nothing: a maximum taken from a value is already at
  least that value), kept as a column and repeated along the rows; the shifted entries' exponentials summed from the
  word `w0`, whose value is 0; the sum's logarithm, kept and repeated likewise, subtracted from the shifted entries.
  At (p, q) it is `z(p,q) − M − log Σ_k exp (z(p,k) − M)` with `M` the fold of `max` from `w`'s value over row p
  (`logSoftmax_apply`). No entry needs to be finite.
-/
import Idealize.ShloMosaic.PureOps.Ideal.Laws
import Idealize.ShloMosaic.PureOps.Reduce
import Idealize.ShloMosaic.Lib.Pipeline.Value
import Idealize.ShloMosaic.Lib.ValueIdx

noncomputable section

namespace Cert.HostRows

open Idealize.ShloMosaic Idealize.ShloMosaic.ValueIdx

variable {m n : Nat}

/-! ## Reductions along the columns -/

/-- The reduced index `p` with column `k` put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From the word `w` the host's reduce with a maximum body along the columns, at row `p`, is the fold of `max` from
    `w`'s value over the row. -/
theorem reduce_max_row (x : FVec Ideal (⟨2, ![m, n]⟩ : Shape) .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (w : BitVec 32) (p : Fin m) :
    Host.reduce FloatOps.maximumf x (constant (⟨0, ![]⟩ : Shape) .f32 w) h' hu (ix1 p)
      = (Finset.univ : Finset (Fin n)).fold max (Ideal.ofBits .f32 w) fun k : Fin n => x (ix2 p k) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (Ideal.ofBits .f32 w) f (Finset.univ : Finset (Fin n))) hf

/-- The host's sum-reduction along the columns from an initial value, at row `p`, is that value plus the row's sum. -/
theorem reduce_add_row (x : (⟨2, ![m, n]⟩ : Shape).Idx → EReal) (h' : (⟨2, ![m, n]⟩ : Shape).ReducesTo [1] (⟨1, ![m]⟩ : Shape))
    (h : (⟨2, ![m, n]⟩ : Shape).Reduces [1] (⟨1, ![m]⟩ : Shape)) (init : EReal) (p : Fin m) :
    Ideal.hostReduceAdd h' x init (ix1 p) = init + ∑ k : Fin n, x (ix2 p k) := by
  rw [Ideal.hostReduceAdd_single h' h]
  exact congrArg (init + ·) (Finset.sum_congr rfl fun k _ => congrArg x (lift_row h p k))

/-! ## Constants and columns laid out by the host -/

/-- A scalar constant repeated into an array reads the constant's value. -/
theorem splat_apply {t : Shape} (dims : Fin (⟨0, ![]⟩ : Shape).rank → Fin t.rank) (h : (⟨0, ![]⟩ : Shape).BroadcastsInDim t dims)
    (w : BitVec 32) (i : t.Idx) :
    broadcastInDim t dims h (constant (F := Ideal) (⟨0, ![]⟩ : Shape) .f32 w) i = Ideal.ofBits .f32 w := rfl

/-- A one-column array repeated along the rows reads its column at the row. -/
theorem column_repeat {α : Type} {b : Nat} (v : (⟨2, ![m, 1]⟩ : Shape).Idx → α)
    (h : (⟨2, ![m, 1]⟩ : Shape).BroadcastsInDim (⟨2, ![m, b]⟩ : Shape) ![0, 1]) (p : Fin m) (k : Fin b) :
    broadcastInDim (⟨2, ![m, b]⟩ : Shape) ![0, 1] h v (ix2 p k) = v (ix2 p (0 : Fin 1)) := by
  refine broadcastInDim_apply _ h v (ix2 p k) (ix2 p (0 : Fin 1)) fun a => ?_
  match a with
  | ⟨0, _⟩ =>
    show p.val = if m = 1 then 0 else p.val
    split
    · have := p.isLt; omega
    · rfl
  | ⟨1, _⟩ => rfl

/-- A vector kept as a one-column array reads the vector at the row. -/
theorem column_keep {α : Type} (x : (⟨1, ![m]⟩ : Shape).Idx → α)
    (h : (⟨1, ![m]⟩ : Shape).BroadcastsInDim (⟨2, ![m, 1]⟩ : Shape) ![0]) (p : Fin m) :
    broadcastInDim (⟨2, ![m, 1]⟩ : Shape) ![0] h x (ix2 p (0 : Fin 1)) = x (ix1 p) := by
  refine broadcastInDim_apply _ h x (ix2 p (0 : Fin 1)) (ix1 p) fun a => ?_
  match a with
  | ⟨0, _⟩ =>
    show p.val = if m = 1 then 0 else p.val
    split
    · have := p.isLt; omega
    · rfl

/-! ## The host's row-wise log-softmax -/

section LogSoftmax

variable (h' : (⟨2, ![m, n]⟩ : Shape).ReducesTo [1] (⟨1, ![m]⟩ : Shape)) (h : (⟨2, ![m, n]⟩ : Shape).Reduces [1] (⟨1, ![m]⟩ : Shape)) (hu : 0 < (⟨0, ![]⟩ : Shape).numel)
  (b0 : (⟨0, ![]⟩ : Shape).BroadcastsInDim (⟨1, ![m]⟩ : Shape) ![]) (b1 : (⟨1, ![m]⟩ : Shape).BroadcastsInDim (⟨2, ![m, 1]⟩ : Shape) ![0])
  (b2 : (⟨2, ![m, 1]⟩ : Shape).BroadcastsInDim (⟨2, ![m, n]⟩ : Shape) ![0, 1]) (w w0 : BitVec 32)

/-- Each row's maximum, reduced from `w` and taken once more against `w`'s value. -/
def rowMaxima (z : FVec Ideal (⟨2, ![m, n]⟩ : Shape) .f32) : FVec Ideal (⟨1, ![m]⟩ : Shape) .f32 :=
  maximumf (broadcastInDim (⟨1, ![m]⟩ : Shape) ![] b0 (constant (F := Ideal) (⟨0, ![]⟩ : Shape) .f32 w))
    (Host.reduce FloatOps.maximumf z (constant (F := Ideal) (⟨0, ![]⟩ : Shape) .f32 w) h' hu)

/-- Each entry's distance to its row's maximum. -/
def shifted (z : FVec Ideal (⟨2, ![m, n]⟩ : Shape) .f32) : FVec Ideal (⟨2, ![m, n]⟩ : Shape) .f32 :=
  subf z (broadcastInDim (⟨2, ![m, n]⟩ : Shape) ![0, 1] b2 (broadcastInDim (⟨2, ![m, 1]⟩ : Shape) ![0] b1 (rowMaxima h' hu b0 w z)))

/-- The shifted entries minus the logarithm of the row's sum of shifted exponentials. -/
def logSoftmax (z : FVec Ideal (⟨2, ![m, n]⟩ : Shape) .f32) : FVec Ideal (⟨2, ![m, n]⟩ : Shape) .f32 :=
  subf (shifted h' hu b0 b1 b2 w z) (broadcastInDim (⟨2, ![m, n]⟩ : Shape) ![0, 1] b2 (Host.log (broadcastInDim (⟨2, ![m, 1]⟩ : Shape) ![0] b1
    (Host.reduceAdd (Host.exp (shifted h' hu b0 b1 b2 w z)) (constant (F := Ideal) (⟨0, ![]⟩ : Shape) .f32 w0) h' hu))))

include h in
theorem rowMaxima_apply (z : FVec Ideal (⟨2, ![m, n]⟩ : Shape) .f32) (p : Fin m) :
    rowMaxima h' hu b0 w z (ix1 p) = (Finset.univ : Finset (Fin n)).fold max (Ideal.ofBits .f32 w) fun k : Fin n => z (ix2 p k) := by
  unfold rowMaxima
  show FloatOps.maximumf (broadcastInDim (⟨1, ![m]⟩ : Shape) ![] b0 (constant (F := Ideal) (⟨0, ![]⟩ : Shape) .f32 w) (ix1 p))
    (Host.reduce FloatOps.maximumf z (constant (F := Ideal) (⟨0, ![]⟩ : Shape) .f32 w) h' hu (ix1 p)) = _
  rw [splat_apply, reduce_max_row z h' h hu w p]
  exact max_eq_right (by rw [Finset.le_fold_max]; exact Or.inl le_rfl)

include h in
theorem shifted_apply (z : FVec Ideal (⟨2, ![m, n]⟩ : Shape) .f32) (p : Fin m) (q : Fin n) :
    shifted h' hu b0 b1 b2 w z (ix2 p q)
      = z (ix2 p q) - (Finset.univ : Finset (Fin n)).fold max (Ideal.ofBits .f32 w) fun k : Fin n => z (ix2 p k) := by
  unfold shifted
  show FloatOps.subf (z (ix2 p q)) (broadcastInDim (⟨2, ![m, n]⟩ : Shape) ![0, 1] b2 (broadcastInDim (⟨2, ![m, 1]⟩ : Shape) ![0] b1 (rowMaxima h' hu b0 w z)) (ix2 p q)) = _
  rw [column_repeat, column_keep, rowMaxima_apply h' h hu b0 w z p]
  rfl

include h in
/-- The host's log-softmax at (p, q), given that the sum's initial word `w0` is worth 0. -/
theorem logSoftmax_apply (hw0 : Ideal.ofBits .f32 w0 = 0) (z : FVec Ideal (⟨2, ![m, n]⟩ : Shape) .f32) (p : Fin m) (q : Fin n) :
    logSoftmax h' hu b0 b1 b2 w w0 z (ix2 p q)
      = (z (ix2 p q) - (Finset.univ : Finset (Fin n)).fold max (Ideal.ofBits .f32 w) fun k : Fin n => z (ix2 p k))
        - Ideal.log (∑ k' : Fin n, Ideal.exp (z (ix2 p k')
            - (Finset.univ : Finset (Fin n)).fold max (Ideal.ofBits .f32 w) fun k : Fin n => z (ix2 p k))) := by
  unfold logSoftmax
  show FloatOps.subf (shifted h' hu b0 b1 b2 w z (ix2 p q)) (broadcastInDim (⟨2, ![m, n]⟩ : Shape) ![0, 1] b2 (Host.log (broadcastInDim (⟨2, ![m, 1]⟩ : Shape) ![0] b1
      (Host.reduceAdd (Host.exp (shifted h' hu b0 b1 b2 w z)) (constant (F := Ideal) (⟨0, ![]⟩ : Shape) .f32 w0) h' hu))) (ix2 p q)) = _
  rw [shifted_apply h' h hu b0 b1 b2 w z p q, column_repeat]
  show FloatOps.subf (F := Ideal) (φ := .f32) _ (Ideal.log (broadcastInDim (⟨2, ![m, 1]⟩ : Shape) ![0] b1
      (Ideal.hostReduceAdd h' (Host.exp (shifted h' hu b0 b1 b2 w z)) (Ideal.ofBits .f32 w0)) (ix2 p (0 : Fin 1)))) = _
  rw [column_keep, reduce_add_row _ h' h, hw0, zero_add]
  refine congrArg (fun s => (z (ix2 p q) - (Finset.univ : Finset (Fin n)).fold max (Ideal.ofBits .f32 w) fun k : Fin n => z (ix2 p k)) - Ideal.log s)
    (Finset.sum_congr rfl fun k' _ => ?_)
  show Ideal.exp (shifted h' hu b0 b1 b2 w z (ix2 p k')) = _
  rw [shifted_apply h' h hu b0 b1 b2 w z p k']

end LogSoftmax

end Cert.HostRows

end
-- ==== Proof.RefDense.lean ====
/-
  The reference's three dense stages, on the extended reals.

  * The host's `dot_general` of `x` and `W1` contracts their one shared axis: it is the product `x · W1`, entry by entry.
  * Adding the bias — a vector the host first lays out as one row and then repeats down the rows — and taking the
    maximum with zero acts on each entry by itself; followed by the `dot_general` with `W2` it is the product of
    `max(a + b, 0)` with `W2`, the bias read as the one-row array it is laid out as.
  * The host's log-softmax reduces each row's maximum from −∞ and takes the maximum with −∞ once more (which changes
    nothing: a maximum taken from −∞ is already at least −∞), keeps it as a column and repeats it along the rows;
    likewise the sum, reduced from 0, of the shifted exponentials, whose logarithm is subtracted. Entry by entry it is
    `z − max z − log Σ exp(z − max z)` over the row `z` of `a + b`.
  Nothing here needs an entry to be finite.
-/
import proofs.«138661_j11828339933760_1_alg».proof.Proof.RefRead
import proofs.«138661_j11828339933760_1_alg».proof.Proof.Network
import proofs.«138661_j11828339933760_1_alg».proof.Proof.LibRowsCols
import proofs.«138661_j11828339933760_1_alg».proof.Proof.LibRowBias
import proofs.«138661_j11828339933760_1_alg».proof.Proof.LibHostColumn
import proofs.«138661_j11828339933760_1_alg».proof.Proof.LibRowSoftmax
import proofs.«138661_j11828339933760_1_alg».proof.Proof.LibHostRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RefDense

open Idealize.ShloMosaic Idealize.ShloMosaic.ValueIdx Idealize.ShloMosaic.HostColumn
open Cert.ReferenceIdeal Cert.ReferenceIdeal.Gen Cert.Gcn.RefRead Cert.Dense Cert.Attn

/-! ## The two products -/

theorem rowsCols1 : RowsCols (R := 100000) (K := 256) (N := 128) dot_S100000x256_S256x128_S100000x128_1_0_0_1_n_n :=
  ⟨rfl, rfl, fun _ _ => rfl, fun _ _ => rfl, fun _ _ => rfl, fun _ _ => rfl⟩

theorem rowsCols2 : RowsCols (R := 100000) (K := 128) (N := 40) dot_S100000x128_S128x40_S100000x40_1_0_0_1_n_n :=
  ⟨rfl, rfl, fun _ _ => rfl, fun _ _ => rfl, fun _ _ => rfl, fun _ _ => rfl⟩

/-- The first `dot_general` is `x · W1`. -/
theorem dense1_eq (x : (⟨S100000x256, .f32⟩ : BufTy).Contents (Elt Ideal)) (w : (⟨S256x128, .f32⟩ : BufTy).Contents (Elt Ideal)) :
    dense1 (F := Ideal) x w = rowsTimes (M := 100000) (K := 256) (N := 128) x w :=
  dotGeneral_eq rowsCols1 none (φ₁ := .f32) (φ₂ := .f32) x w

/-- Bias, maximum with zero and the second `dot_general` are `max(a + b, 0) · W2`. -/
theorem dense2_eq (a : (⟨S100000x128, .f32⟩ : BufTy).Contents (Elt Ideal)) (b : (⟨S128, .f32⟩ : BufTy).Contents (Elt Ideal))
    (w : (⟨S128x40, .f32⟩ : BufTy).Contents (Elt Ideal)) :
    dense2 (F := Ideal) a b w = rowsTimes (M := 100000) (K := 128) (N := 40)
      (hiddenRows (R := 100000) (K := 128) a (shapeCast Cert.KernelIdeal.S1x128 b Cert.KernelIdeal.Gen.shapeCasts_S128_S1x128)) w := by
  funext j
  obtain ⟨p, q, rfl⟩ : ∃ (p : Fin 100000) (q : Fin 40), j = ix2 p q := ⟨j 0, j 1, eq_ix2 j⟩
  unfold dense2
  refine (dotGeneral_apply rowsCols2 none (φ₁ := .f32) (φ₂ := .f32) _ w (ix2 p q)).trans ?_
  refine Finset.sum_congr rfl fun k _ => congrArg (· * w (ix2 k q)) ?_
  show max (a (ix2 p k) + broadcastInDim S100000x128 ![0, 1] bcast_S1x128_S100000x128_0_1 (broadcastInDim S1x128 ![1] bcast_S128_S1x128_1 b) (ix2 p k))
      (Ideal.ofBits .f32 0x00000000#32)
    = hiddenRows (R := 100000) (K := 128) a (shapeCast Cert.KernelIdeal.S1x128 b Cert.KernelIdeal.Gen.shapeCasts_S128_S1x128) (ix2 p k)
  rw [hiddenRows_apply, shapeCast_a_1a_apply, row_apply]

/-! ## The log-softmax -/

/-- The rows of `a + b`, entry by entry. -/
theorem biased_apply (a : (⟨S100000x40, .f32⟩ : BufTy).Contents (Elt Ideal)) (b : (⟨S40, .f32⟩ : BufTy).Contents (Elt Ideal))
    (p : Fin 100000) (k : Fin 40) : biased (F := Ideal) a b (ix2 p k) = a (ix2 p k) + b (ix1 k) := by
  show a (ix2 p k) + broadcastInDim S100000x40 ![0, 1] bcast_S1x40_S100000x40_0_1 (broadcastInDim S1x40 ![1] bcast_S40_S1x40_1 b) (ix2 p k) = _
  rw [row_apply]

/-- Reducing along the columns drops the column coordinate. -/
theorem reduces : S100000x40.Reduces [1] S100000 := by decide

/-- The host's log-softmax, entry by entry: the general reading of the host's operations at these extents, the
    maximum reduced from the word of −∞ and the sum from the word of 0. -/
theorem logSoftmax_apply (z : (⟨S100000x40, .f32⟩ : BufTy).Contents (Elt Ideal)) (p : Fin 100000) (q : Fin 40) :
    logSoftmax (F := Ideal) z (ix2 p q) = (z (ix2 p q) - rowMax fun k : Fin 40 => z (ix2 p k))
      - Ideal.log (∑ k' : Fin 40, Ideal.exp (z (ix2 p k') - rowMax fun k : Fin 40 => z (ix2 p k))) :=
  Cert.HostRows.logSoftmax_apply (m := 100000) (n := 40) reducesTo_S100000x40_S100000_d1 reduces h_S_
    bcast_S_S100000 bcast_S100000_S100000x1_0 bcast_S100000x1_S100000x40_0_1 0xFF800000#32 0x00000000#32 Ideal.ofBits_zero_f32 z p q

-- from here on the log-softmax is used through `logSoftmax_apply` alone
attribute [local irreducible] logSoftmax

/-- The host's log-softmax of the rows plus the bias is the specification's, the bias read as a one-row array. -/
theorem logSoftmax_eq (a : (⟨S100000x40, .f32⟩ : BufTy).Contents (Elt Ideal)) (b : (⟨S40, .f32⟩ : BufTy).Contents (Elt Ideal)) :
    logSoftmax (F := Ideal) (biased (F := Ideal) a b)
      = logSoftRows (M := 100000) (C := 40) a (shapeCast Cert.KernelIdeal.S1x40 b Cert.KernelIdeal.Gen.shapeCasts_S40_S1x40) := by
  funext j
  obtain ⟨p, q, rfl⟩ : ∃ (p : Fin 100000) (q : Fin 40), j = ix2 p q := ⟨j 0, j 1, eq_ix2 j⟩
  rw [logSoftmax_apply, logSoftRows_apply]
  simp only [biased_apply, shapeCast_a_1a_apply]

/-! ## The whole reference -/

/-- The reference's spelling of the three dense stages around the shared edge bookkeeping is the network. -/
theorem network_eq (x : (⟨S100000x256, .f32⟩ : BufTy).Contents (Elt Ideal)) (e : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal)) :
    logSoftmax (F := Ideal) (biased (F := Ideal)
        (aggregate40 (F := Ideal) (firstEnds (F := Ideal) e) (secondEnds (F := Ideal) e) (edgeWeight (F := Ideal) (firstEnds (F := Ideal) e) (secondEnds (F := Ideal) e))
          (dense2 (F := Ideal)
            (aggregate128 (F := Ideal) (firstEnds (F := Ideal) e) (secondEnds (F := Ideal) e) (edgeWeight (F := Ideal) (firstEnds (F := Ideal) e) (secondEnds (F := Ideal) e))
              (dense1 (F := Ideal) x w1))
            b1 w2))
        b2)
    = network x e w1 (shapeCast Cert.KernelIdeal.S1x128 b1 Cert.KernelIdeal.Gen.shapeCasts_S128_S1x128) w2 (shapeCast Cert.KernelIdeal.S1x40 b2 Cert.KernelIdeal.Gen.shapeCasts_S40_S1x40) := by
  rw [logSoftmax_eq, dense2_eq, dense1_eq]
  rfl

end Cert.Gcn.RefDense

end
-- ==== Proof.lean ====
/-
  The certificate of a two-layer graph convolution with a log-softmax head: a Pallas program of three kernels between
  stretches of host operations, against the plain jnp reference.

  Both programs compute, from node features `x`, an edge list, two weight matrices and two biases,
      out = log-softmax rows of ( A · ( max( A · (x · W1) + b1, 0 ) · W2 ) + b2 ),
  where `A` is the graph's normalised adjacency with self-loops, applied by gathering rows at each edge's first end
  point, scaling by the edge's weight and adding up at its second end point. The edge bookkeeping and the two
  aggregations are the SAME host operations in both programs. They differ in the three dense stages: the reference
  computes each as whole-array host operations (`dot_general`, broadcasts, reductions); the kernel computes each one
  block of 5000 rows at a time on the matrix and vector units, with the biases laid out as one-row arrays.

  On the extended reals the two agree entry by entry, with no condition on the inputs:
    * rows of a product are products of rows, so a product computed block by block is the whole product, and a
      matrix-unit product into a zero accumulator and a `dot_general` are both the plain sum of products over the one
      contracted axis (a change of float format is the identity there);
    * adding a bias row, the maximum with zero, and the log-softmax act on each row by itself;
    * a lane reduction and a host reduction over the columns are the same maximum, resp. sum, over the row, and one
      more maximum with −∞ changes nothing.
  The frames are the generated ones (the reference's from its run); the idealization rewrote nothing.
-/
import proofs.«138661_j11828339933760_1_alg».proof.Defs
import proofs.«138661_j11828339933760_1_alg».proof.Proof.Gen.Kernel
import proofs.«138661_j11828339933760_1_alg».proof.Proof.Gen.Kernel.Skeleton
import proofs.«138661_j11828339933760_1_alg».proof.Proof.Gen.Kernel.Launch
import proofs.«138661_j11828339933760_1_alg».proof.Proof.Gen.Kernel.Points
import proofs.«138661_j11828339933760_1_alg».proof.Proof.Gen.Kernel.Frame
import proofs.«138661_j11828339933760_1_alg».proof.Proof.Gen.KernelIdeal
import proofs.«138661_j11828339933760_1_alg».proof.Proof.Gen.KernelIdeal.Skeleton
import proofs.«138661_j11828339933760_1_alg».proof.Proof.Gen.KernelIdeal.Launch
import proofs.«138661_j11828339933760_1_alg».proof.Proof.Gen.KernelIdeal.Points
import proofs.«138661_j11828339933760_1_alg».proof.Proof.Gen.KernelIdeal.Frame
import proofs.«138661_j11828339933760_1_alg».proof.Proof.Gen.ReferenceIdeal
import proofs.«138661_j11828339933760_1_alg».proof.Proof.RefRun
import proofs.«138661_j11828339933760_1_alg».proof.Proof.Gen.Pre_finite_inputs
import proofs.«138661_j11828339933760_1_alg».proof.Proof.KernelRun
import proofs.«138661_j11828339933760_1_alg».proof.Proof.KernelValue
import proofs.«138661_j11828339933760_1_alg».proof.Proof.RefRead
import proofs.«138661_j11828339933760_1_alg».proof.Proof.RefDense
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the result array at the network of the argument arrays. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Gen.shapeCasts_S128_S1x128) (m ((c.tc : Thread Cert.KernelIdeal.nD Cert.KernelIdeal.τ).loc Cert.KernelIdeal.main_arg4))
      (shapeCast Cert.KernelIdeal.S1x40 (m ((c.tc : Thread Cert.KernelIdeal.nD Cert.KernelIdeal.τ).loc Cert.KernelIdeal.main_arg5)) Cert.KernelIdeal.Gen.shapeCasts_S40_S1x40), ?_, ?_⟩
  · exact (θ_run Cert.KernelIdeal.defs _ _).mono
      (fun _ h c => ⟨(h c).1.trans (Cert.Gcn.KernelValue.result_eq m ρ c), (h c).2⟩)
      (Cert.Gcn.KernelRun.run (F := Ideal) m ρ)
  · refine (θ_run Cert.ReferenceIdeal.defs _ _).mono (fun _ h c => ⟨(h c).1.trans ?_, (h c).2⟩)
      (Cert.ReferenceIdeal.ValueP.run (F := Ideal) m' ρ')
    refine (Cert.Gcn.RefRead.result_eq (launchContents m' c)).trans ((Cert.Gcn.RefDense.network_eq _ _ _ _ _ _).trans ?_)
    obtain ⟨h0, h1, h2, h3, h4, h5⟩ := hagree c
    show Cert.Gcn.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (shapeCast Cert.KernelIdeal.S1x128 (m' ((c.tc : Thread Cert.ReferenceIdeal.nD Cert.ReferenceIdeal.τ).loc Cert.ReferenceIdeal.main_arg3)) Cert.KernelIdeal.Gen.shapeCasts_S128_S1x128) (m' ((c.tc : Thread Cert.ReferenceIdeal.nD Cert.ReferenceIdeal.τ).loc Cert.ReferenceIdeal.main_arg4))
      (shapeCast Cert.KernelIdeal.S1x40 (m' ((c.tc : Thread Cert.ReferenceIdeal.nD Cert.ReferenceIdeal.τ).loc Cert.ReferenceIdeal.main_arg5)) Cert.KernelIdeal.Gen.shapeCasts_S40_S1x40)
      = Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Gen.shapeCasts_S128_S1x128) (m ((c.tc : Thread Cert.KernelIdeal.nD Cert.KernelIdeal.τ).loc Cert.KernelIdeal.main_arg4))
      (shapeCast Cert.KernelIdeal.S1x40 (m ((c.tc : Thread Cert.KernelIdeal.nD Cert.KernelIdeal.τ).loc Cert.KernelIdeal.main_arg5)) Cert.KernelIdeal.Gen.shapeCasts_S40_S1x40)
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
